-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S10000x128 : Shape := ⟨2, ![10000, 128]⟩
abbrev S10000x1 : Shape := ⟨2, ![10000, 1]⟩
abbrev S850000x128 : Shape := ⟨2, ![850000, 128]⟩
abbrev S1x128 : Shape := ⟨2, ![1, 128]⟩
abbrev S50000x64 : Shape := ⟨2, ![50000, 64]⟩
abbrev S10000x64 : Shape := ⟨2, ![10000, 64]⟩
abbrev S850000x64 : Shape := ⟨2, ![850000, 64]⟩
abbrev S1x64 : Shape := ⟨2, ![1, 64]⟩
abbrev S10000 : Shape := ⟨1, ![10000]⟩

abbrev nBuf : Space → Nat
  | .hbm => 55
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S50000x128, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000x128, .f32⟩
  | .hbm, ⟨34, _⟩ => ⟨S_, .f32⟩
  | .hbm, ⟨35, _⟩ => ⟨S50000x128, .f32⟩
  | .hbm, ⟨36, _⟩ => ⟨S850000x1, .i32⟩
  | .hbm, ⟨37, _⟩ => ⟨S50000x128, .f32⟩
  | .hbm, ⟨38, _⟩ => ⟨S1x128, .f32⟩
  | .hbm, ⟨39, _⟩ => ⟨S50000x64, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x64, .f32⟩
  | .hbm, ⟨49, _⟩ => ⟨S_, .f32⟩
  | .hbm, ⟨50, _⟩ => ⟨S50000x64, .f32⟩
  | .hbm, ⟨51, _⟩ => ⟨S850000x1, .i32⟩
  | .hbm, ⟨52, _⟩ => ⟨S50000x64, .f32⟩
  | .hbm, ⟨53, _⟩ => ⟨S1x64, .f32⟩
  | .hbm, ⟨54, _⟩ => ⟨S50000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x1, .f32⟩
  | .local _ .vmem, ⟨4, _⟩ => ⟨S10000x1, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | .local _ .vmem, ⟨10, _⟩ => ⟨S10000x1, .f32⟩
  | .local _ .vmem, ⟨11, _⟩ => ⟨S1x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x1, .f32⟩
  | .local _ .vmem, ⟨18, _⟩ => ⟨S10000x1, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S50000x128 : S_.BroadcastsInDim S50000x128 (![] : Fin 0 → Fin S50000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  scatter_S50000_S850000x1_S850000_n_0_0_1_wf : ScatterDims.WF S50000 S850000x1 S850000 [] [0] [0] 1
  dot_S10000x128_S128x128_S10000x128_1_0_0_1_n_n_wf : DotDims.WF S10000x128 S128x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10000x128_S128x64_S10000x64_1_0_0_1_n_n_wf : DotDims.WF S10000x128 S128x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S50000x1.size a
  hwx0_2 : ∀ i : grid0.Coords, EltTy.bits .f32 = 32 ∨ (Rect.block (s := S50000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S50000x1.size a
  hwx1_1 : ∀ i : grid1.Coords, EltTy.bits .f32 = 32 ∨ (Rect.block (s := S50000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S50000x64.size a
  hwx1_4 : ∀ i : grid1.Coords, EltTy.bits .f32 = 32 ∨ (Rect.block (s := S50000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S50000x1.size a
  hwx2_1 : ∀ i : grid2.Coords, EltTy.bits .f32 = 32 ∨ (Rect.block (s := S50000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S50000x64.size a
  hwx2_3 : ∀ i : grid2.Coords, EltTy.bits .f32 = 32 ∨ (Rect.block (s := S50000x64) S10000x64.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v37) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩

abbrev nBuf : Space → Nat
  | .hbm => 99
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S850000, .i32⟩
  | .hbm, ⟨25, _⟩ => ⟨S850000, .i1⟩
  | .hbm, ⟨26, _⟩ => ⟨S_, .i32⟩
  | .hbm, ⟨27, _⟩ => ⟨S850000, .i32⟩
  | .hbm, ⟨28, _⟩ => ⟨S850000, .i32⟩
  | .hbm, ⟨29, _⟩ => ⟨S850000, .i32⟩
  | .hbm, ⟨30, _⟩ => ⟨S850000x1, .i32⟩
  | .hbm, ⟨31, _⟩ => ⟨S850000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S850000, .f32⟩
  | .hbm, ⟨42, _⟩ => ⟨S50000x128, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x128, .f32⟩
  | .hbm, ⟨52, _⟩ => ⟨S850000x1, .f32⟩
  | .hbm, ⟨53, _⟩ => ⟨S850000x128, .f32⟩
  | .hbm, ⟨54, _⟩ => ⟨S850000x128, .f32⟩
  | .hbm, ⟨55, _⟩ => ⟨S_, .f32⟩
  | .hbm, ⟨56, _⟩ => ⟨S50000x128, .f32⟩
  | .hbm, ⟨57, _⟩ => ⟨S850000x1, .i32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S50000x64, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x64, .f32⟩
  | .hbm, ⟨75, _⟩ => ⟨S850000x1, .f32⟩
  | .hbm, ⟨76, _⟩ => ⟨S850000x64, .f32⟩
  | .hbm, ⟨77, _⟩ => ⟨S850000x64, .f32⟩
  | .hbm, ⟨78, _⟩ => ⟨S_, .f32⟩
  | .hbm, ⟨79, _⟩ => ⟨S50000x64, .f32⟩
  | .hbm, ⟨80, _⟩ => ⟨S850000x1, .i32⟩
  | .hbm, ⟨81, _⟩ => ⟨S50000x64, .f32⟩
  | .hbm, ⟨82, _⟩ => ⟨S1x64, .f32⟩
  | .hbm, ⟨83, _⟩ => ⟨S50000x64, .f32⟩
  | .hbm, ⟨84, _⟩ => ⟨S50000x64, .f32⟩
  | .hbm, ⟨85, _⟩ => ⟨S_, .f32⟩
  | .hbm, ⟨86, _⟩ => ⟨S50000, .f32⟩
  | .hbm, ⟨87, _⟩ => ⟨S_, .f32⟩
  | .hbm, ⟨88, _⟩ => ⟨S50000, .f32⟩
  | .hbm, ⟨89, _⟩ => ⟨S50000, .f32⟩
  | .hbm, ⟨90, _⟩ => ⟨S50000x1, .f32⟩
  | .hbm, ⟨91, _⟩ => ⟨S50000x64, .f32⟩
  | .hbm, ⟨92, _⟩ => ⟨S50000x64, .f32⟩
  | .hbm, ⟨93, _⟩ => ⟨S50000x64, .f32⟩
  | .hbm, ⟨94, _⟩ => ⟨S_, .f32⟩
  | .hbm, ⟨95, _⟩ => ⟨S50000, .f32⟩
  | .hbm, ⟨96, _⟩ => ⟨S50000x1, .f32⟩
  | .hbm, ⟨97, _⟩ => ⟨S50000x64, .f32⟩
  | .hbm, ⟨98, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_11 : Ref sig .tc := ⟨.hbm, 85, rfl⟩
abbrev main_v64 : Ref sig .tc := ⟨.hbm, 86, rfl⟩
abbrev main_cst_12 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.RunValue.lean ====
/-
  The kernel program's run with its result array named.

  Every weakly fair execution of the program terminates, nothing faulting, with the argument arrays as launched and the
  result array holding what the last stage's write-backs leave: the buffer contents folded through the program — three
  stretches of host operations and three pipelined stages in turn — read at the result's buffer.
-/
import proofs.«131309_j50208167690258_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the program's six segments; the last thread state holds every unscoped buffer at the folded
    contents, which is read against the final memory at the result's buffer and at each argument's. -/
theorem run_value : θ_run defs (onTc (τ := τ) (main (F := F))) ⟨m, fun _ => 0, ρ⟩ (fun r => ∀ c : Dev nD,
      r.2.mem ((c.tc : Thread nD τ).loc main_v39) = W6 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v39 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunValue

end
-- ==== Proof.Spec.lean ====
/-
  The mathematics of the two-layer graph convolution, as functions of whole arrays over the extended reals.

  A node's row of features passes three dense stages, each preceded or followed by a scaling with the node's
  normalising factor (one number per node, kept as a one-column array):

  * `scaledProduct x w dc` : row r of x times the matrix w, every entry scaled by the factor of node r;
  * `reluLayer a dc b w`   : row r of a scaled by the factor of node r, plus the bias row b, capped below at zero,
                              times the matrix w, every entry scaled by the factor of node r again;
  * `softmaxLayer a dc b`  : row r of a scaled by the factor of node r, plus the bias row b, then the row's softmax:
                              each entry's exponential of its distance to the row maximum, over the sum of those.

  All three act on one row at a time: entry (r, j) of the result depends on row r of the first argument only.
-/
import Idealize.ShloMosaic.PureOps.Ideal
import Idealize.ShloMosaic.Lib.ValueIdx

noncomputable section

open scoped BigOperators

namespace Cert.Gcn

open Idealize.ShloMosaic Idealize.ShloMosaic.ValueIdx

/-- A two-axis array of extended reals. -/
abbrev A2 (a b : Nat) := (⟨2, ![a, b]⟩ : Shape).Idx → EReal
/-- A one-axis array of extended reals. -/
abbrev A1 (a : Nat) := (⟨1, ![a]⟩ : Shape).Idx → EReal

/-- The value of the single-precision pattern of zero. -/
def zero32 : EReal := Ideal.ofBits .f32 0x00000000#32
/-- The value of the single-precision pattern of minus infinity. -/
def ninf32 : EReal := Ideal.ofBits .f32 0xFF800000#32

/-- Row r of `x` times `w`, scaled by the factor of node r. -/
def scaledProduct {n k p : Nat} (x : A2 n k) (w : A2 k p) (dc : A2 n 1) : A2 n p :=
  fun i => (∑ kk : Fin k, x (ix2 (i 0) kk) * w (ix2 kk (i 1))) * dc (ix2 (i 0) (0 : Fin 1))

theorem scaledProduct_apply {n k p : Nat} (x : A2 n k) (w : A2 k p) (dc : A2 n 1) (r : Fin n) (j : Fin p) :
    scaledProduct x w dc (ix2 r j) = (∑ kk : Fin k, x (ix2 r kk) * w (ix2 kk j)) * dc (ix2 r (0 : Fin 1)) := rfl

/-- Row r of `a` scaled by the factor of node r, plus the bias row, capped below at zero, times `w`, scaled again. -/
def reluLayer {n k p : Nat} (a : A2 n k) (dc : A2 n 1) (b : A2 1 k) (w : A2 k p) : A2 n p :=
  fun i => (∑ kk : Fin k, max (dc (ix2 (i 0) (0 : Fin 1)) * a (ix2 (i 0) kk) + b (ix2 (0 : Fin 1) kk)) zero32 * w (ix2 kk (i 1)))
    * dc (ix2 (i 0) (0 : Fin 1))

theorem reluLayer_apply {n k p : Nat} (a : A2 n k) (dc : A2 n 1) (b : A2 1 k) (w : A2 k p) (r : Fin n) (j : Fin p) :
    reluLayer a dc b w (ix2 r j)
      = (∑ kk : Fin k, max (dc (ix2 r (0 : Fin 1)) * a (ix2 r kk) + b (ix2 (0 : Fin 1) kk)) zero32 * w (ix2 kk j))
        * dc (ix2 r (0 : Fin 1)) := rfl

/-- The maximum of a row, taken from minus infinity. -/
def rowMax {p : Nat} (z : Fin p → EReal) : EReal := (Finset.univ : Finset (Fin p)).fold max ninf32 z

/-- The softmax of a row: each entry's exponential of its distance to the row maximum, over the sum of those. -/
def softmaxRow {p : Nat} (z : Fin p → EReal) (j : Fin p) : EReal :=
  Ideal.div (Ideal.exp (z j - rowMax z)) (∑ q : Fin p, Ideal.exp (z q - rowMax z))

/-- Row r of `a` scaled by the factor of node r, plus the bias row, then the row's softmax. -/
def softmaxLayer {n p : Nat} (a : A2 n p) (dc : A2 n 1) (b : A2 1 p) : A2 n p :=
  fun i => softmaxRow (fun q => dc (ix2 (i 0) (0 : Fin 1)) * a (ix2 (i 0) q) + b (ix2 (0 : Fin 1) q)) (i 1)

theorem softmaxLayer_apply {n p : Nat} (a : A2 n p) (dc : A2 n 1) (b : A2 1 p) (r : Fin n) (j : Fin p) :
    softmaxLayer a dc b (ix2 r j)
      = softmaxRow (fun q => dc (ix2 r (0 : Fin 1)) * a (ix2 r q) + b (ix2 (0 : Fin 1) q)) j := rfl

end Cert.Gcn

end
-- ==== Proof.LibDotSum.lean ====
/-
  A matrix product's sum over the contraction index, re-indexed over the contracted extent: for the plain dimension numbers
  (left operand contracted on its columns, right operand on its rows, no batch axes) the sum over the one-axis contraction
  shape of the operands' products at the dot's operand indices is the sum over `kk : Fin K` of the left operand at
  (row of the output index, `kk`) times the right operand at (`kk`, column of the output index).
-/
import Idealize.ShloMosaic.Lib.ValueIdx
import Idealize.ShloMosaic.PureOps.Ideal.Laws

namespace Cert.Lib.DotSum

open Idealize.ShloMosaic Idealize.ShloMosaic.ValueIdx

variable {M K N : Nat} (d : DotDims ⟨2, ![M, K]⟩ ⟨2, ![K, N]⟩ ⟨2, ![M, N]⟩)

/-- The contraction shape has one axis, -/
theorem contr_rank (hlc : d.lhsContracting = [1]) : d.contr.rank = 1 := by
  rw [d.rank_contr, hlc]; rfl

/-- of the contracted extent. -/
theorem contr_size (hlc : d.lhsContracting = [1]) :
    d.contr.size ⟨0, by rw [contr_rank d hlc]; exact Nat.one_pos⟩ = K := by
  have h := d.size_contr 0 (by rw [hlc]; exact Nat.one_pos)
  rw [h, List.getElem_of_eq hlc]; rfl

/-- A coordinate of an output index depends on the axis's number only. -/
theorem out_coord (j : (⟨2, ![M, N]⟩ : Shape).Idx) (p q : Nat) (hp : p < 2) (hq : q < 2) (h : p = q) :
    (j ⟨p, hp⟩).val = (j ⟨q, hq⟩).val := by subst h; rfl

/-- The left operand's index reads the output's row on its rows, -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact out_coord j _ _ _ _ (by rw [hlb, hln]; rfl)

/-- the right operand's the output's column on its columns. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact out_coord j _ _ _ _ (by rw [hlb, hln, hrn]; rfl)

/-- THE SUM, RE-INDEXED: over the contracted extent, the left operand along the output's row times the right operand down the
    output's column. -/
theorem dot_sum (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    (∑ k : d.contr.Idx, l (d.lhsIdx j k) * r (d.rhsIdx j k)) = ∑ kk : Fin K, l (ix2 (j 0) kk) * r (ix2 kk (j 1)) := by
  have hr := contr_rank d hlc
  have hs := contr_size d hlc
  rw [← Equiv.sum_comp (contrEquiv1 d K hr hs).symm]
  refine Finset.sum_congr rfl fun kk _ => ?_
  have hk := contrEquiv1_symm_val d K hr hs kk
  have el : d.lhsIdx j ((contrEquiv1 d K hr hs).symm kk) = ix2 (j 0) kk := funext fun a => Fin.ext (by
    match a with
    | ⟨0, _⟩ => exact lhs_row d hln hlb j _
    | ⟨1, _⟩ => exact (d.lhsIdx_val_of_single hlc j _).trans hk)
  have er : d.rhsIdx j ((contrEquiv1 d K hr hs).symm kk) = ix2 kk (j 1) := funext fun a => Fin.ext (by
    match a with
    | ⟨0, _⟩ => exact (d.rhsIdx_val_of_single hrc j _).trans hk
    | ⟨1, _⟩ => exact rhs_col d hln hrn hlb hrb j _)
  rw [el, er]; rfl

end Cert.Lib.DotSum
-- ==== Proof.LibDot2.lean ====
/-
  The two matrix products read at an index as a sum over the contracted extent, for the plain dimension numbers (left
  operand contracted on its columns, right operand on its rows, no batch axes): the kernel's product into a zero
  accumulator and the host's product are both the sum over `kk` of left (row, kk) times right (kk, column).
-/
import proofs.«131309_j50208167690258_2_alg».proof.Proof.LibDotSum

namespace Cert.Lib.DotSum

open Idealize.ShloMosaic Idealize.ShloMosaic.ValueIdx

variable {M K N : Nat} (d : DotDims ⟨2, ![M, K]⟩ ⟨2, ![K, N]⟩ ⟨2, ![M, N]⟩)

/-- The kernel's matrix product into a zero accumulator. -/
theorem matmul_zero_at (hlc : d.lhsContracting = [1]) (hrc : d.rhsContracting = [0]) (hln : d.lhsNonContracting = [0])
    (hrn : d.rhsNonContracting = [1]) (hlb : d.lhsBatch = []) (hrb : d.rhsBatch = []) {φ₁ φ₂ : FTy} (prec : Option ContractPrecision)
    (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ kk : Fin K, l (ix2 p kk) * r (ix2 kk q) :=
  (Ideal.matmul_constant_zero_apply d prec l r (ix2 p q)).trans (dot_sum d hlc hrc hln hrn hlb hrb l r (ix2 p q))

/-- The host's matrix product. -/
theorem dotGeneral_at (hlc : d.lhsContracting = [1]) (hrc : d.rhsContracting = [0]) (hln : d.lhsNonContracting = [0])
    (hrn : d.rhsNonContracting = [1]) (hlb : d.lhsBatch = []) (hrb : d.rhsBatch = []) {φ₁ φ₂ : FTy} (prec : Option ContractPrecision)
    (sched : HostSchedule) (l : FVec Ideal ⟨2, ![M, K]⟩ φ₁) (r : FVec Ideal ⟨2, ![K, N]⟩ φ₂) (p : Fin M) (q : Fin N) :
    FloatOps.dotGeneral d prec sched l r (ix2 p q) = ∑ kk : Fin K, l (ix2 p kk) * r (ix2 kk q) :=
  (Ideal.dotGeneral_apply d prec sched l r (ix2 p q)).trans (dot_sum d hlc hrc hln hrn hlb hrb l r (ix2 p q))

end Cert.Lib.DotSum
-- ==== Proof.LibColumn.lean ====
/-
  A column of per-row statistics, in the two layout forms a `keepdims` reduction leaves it in.

  A reduction along the last axis of an `[a, b]` array gives an `[a]` vector; kept as a column it is re-laid as `[a, 1]`, and to
  combine it with the array again it is broadcast back to `[a, b]`. Read at an index: the column at `(i, u)` is the vector at
  `i` whatever the unit coordinate, and the broadcast column at `(p, c)` is the column at `(p, 0)`. Generic in the extents;
  stated at indices built from literal coordinates (`ix1`, `ix2`), the form in which they rewrite.
-/
import Idealize.ShloMosaic.Lib.Pipeline.Value
import Idealize.ShloMosaic.Lib.ValueIdx

namespace Cert.Lib.Column

open Idealize.ShloMosaic Idealize.ShloMosaic.ValueIdx

variable {α : Type}

/-- An `[a]` vector re-laid as an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.Region0.lean ====
/-
  The first dense stage as one function of whole arrays.

  The stage runs on five blocks of 10000 rows. At block t it reads rows 10000·t … 10000·t + 9999 of the node features
  and of the one-column array of normalising factors, and the whole weight matrix, and writes the same rows of its result:
  entry (p, q) of the block is the inner product of row p of the features' block with column q of the weights, times the
  factor of row p. So entry (r, j) of the result array is row r of the features times column j of the weights, scaled by
  the factor of node r, whichever block r falls in: `Cert.Gcn.scaledProduct`. The five blocks tile the 50000 rows.
-/
import proofs.«131309_j50208167690258_2_alg».proof.Proof.Gen.KernelIdeal.Frame
import proofs.«131309_j50208167690258_2_alg».proof.Proof.Spec
import proofs.«131309_j50208167690258_2_alg».proof.Proof.LibDot2
import proofs.«131309_j50208167690258_2_alg».proof.Proof.LibColumn
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block's arithmetic at (p, q): row p of the features' block times column q of the weights, times the factor of
    row p. -/
theorem pay_at (x0 : FVec Ideal S10000x128 .f32) (x1 : FVec Ideal S128x128 .f32) (x2 : FVec Ideal S10000x1 .f32)
    (p : Fin 10000) (q : Fin 128) :
    k0_pay1 (F := Ideal) x0 x1 x2 (ix2 p q)
      = (∑ kk : Fin 128, x0 (ix2 p kk) * x1 (ix2 kk q)) * x2 (ix2 p (0 : Fin 1)) := by
  unfold k0_pay1
  rw [mulf_apply]
  refine congrArg₂ (· * ·) ?_ ?_
  · exact Cert.Lib.DotSum.matmul_zero_at dot_S10000x128_S128x128_S10000x128_1_0_0_1_n_n rfl rfl rfl rfl rfl rfl none x0 x1 p q
  · rw [Cert.Lib.Column.broadcastTo_a1_ab_apply, shapeCast_self]

/-- The printed block index maps over the five grid points: the features, the factors and the result move together down
    the rows; the weights stay. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) ≤ 4 ∧ win0_3.index t (1 : Fin 2) = 0 :=
  (by decide +kernel : ∀ t : Fin grid0.N, _)

/-- Every block of rows is some grid point's. -/
theorem idx_onto : ∀ (b : Fin 5), ∃ t : Fin cfg0.N, win0_3.index t = ![b.val, 0] :=
  (by decide +kernel : ∀ (b : Fin 5), ∃ t : Fin grid0.N, win0_3.index t = ![b.val, 0])

/-- What grid point t writes back is block t of the whole-array function. -/
theorem flushed_eq (c : Dev nD) (t : Fin cfg0.N) :
    (dat0 (F := Ideal) V c).flushed 3 t
      = ((cfg0.win 3).blk t).view.read (Elt Ideal)
          (Cert.Gcn.scaledProduct (V c main_arg0) (V c main_arg2) (V c main_v14)) := by
  show (cfg0.win 3).cut (grid0.coords t) ((dat0 (F := Ideal) V c).after 3 t) = _
  rw [after0_3]
  unfold out0_3
  rw [View.canon_unit_zero hz]
  simp only [View.ld_unit_zero (S := S10000x128) hz, View.ld_unit_zero (S := S128x128) hz, View.ld_unit_zero (S := S10000x1) hz]
  obtain ⟨e0, e1, e2, e3, e4, e5, e6, e7⟩ := idx_facts t
  funext j
  obtain ⟨p, q, rfl⟩ : ∃ (p : Fin 10000) (q : Fin 128), j = ix2 p q := ⟨j 0, j 1, eq_ix2 j⟩
  refine (pay_at (iblk0 V c 0 t) (iblk0 V c 1 t) (iblk0 V c 2 t) p q).trans ?_
  have hr : win0_3.index t (0 : Fin 2) * 10000 + p.val < 50000 := by have := p.isLt; omega
  have r0 : ∀ kk : Fin 128, iblk0 V c 0 t (ix2 p kk)
      = V c main_arg0 (ix2 (⟨win0_3.index t (0 : Fin 2) * 10000 + p.val, hr⟩ : Fin 50000) kk) := by
    intro kk
    show V c main_arg0 (((cfg0.win 0).blk t).view.emb (ix2 p kk)) = _
    refine congrArg _ (funext fun a => Fin.ext ?_)
    match a with
    | ⟨0, _⟩ => show win0_0.index t (0 : Fin 2) * 10000 + 1 * p.val = win0_3.index t (0 : Fin 2) * 10000 + p.val; omega
    | ⟨1, _⟩ => show win0_0.index t (1 : Fin 2) * 128 + 1 * kk.val = kk.val; omega
  have r1 : ∀ kk : Fin 128, iblk0 V c 1 t (ix2 kk q) = V c main_arg2 (ix2 kk q) := by
    intro kk
    show V c main_arg2 (((cfg0.win 1).blk t).view.emb (ix2 kk q)) = _
    refine congrArg _ (funext fun a => Fin.ext ?_)
    match a with
    | ⟨0, _⟩ => show win0_1.index t (0 : Fin 2) * 128 + 1 * kk.val = kk.val; omega
    | ⟨1, _⟩ => show win0_1.index t (1 : Fin 2) * 128 + 1 * q.val = q.val; omega
  have r2 : iblk0 V c 2 t (ix2 p (0 : Fin 1))
      = V c main_v14 (ix2 (⟨win0_3.index t (0 : Fin 2) * 10000 + p.val, hr⟩ : Fin 50000) (0 : Fin 1)) := by
    show V c main_v14 (((cfg0.win 2).blk t).view.emb (ix2 p (0 : Fin 1))) = _
    refine congrArg _ (funext fun a => Fin.ext ?_)
    match a with
    | ⟨0, _⟩ => show win0_2.index t (0 : Fin 2) * 10000 + 1 * p.val = win0_3.index t (0 : Fin 2) * 10000 + p.val; omega
    | ⟨1, _⟩ => show win0_2.index t (1 : Fin 2) * 1 + 1 * 0 = 0; omega
  have hemb : ((cfg0.win 3).blk t).view.emb (ix2 p q)
      = ix2 (⟨win0_3.index t (0 : Fin 2) * 10000 + p.val, hr⟩ : Fin 50000) q := by
    funext a; refine Fin.ext ?_
    match a with
    | ⟨0, _⟩ => show win0_3.index t (0 : Fin 2) * 10000 + 1 * p.val = win0_3.index t (0 : Fin 2) * 10000 + p.val; omega
    | ⟨1, _⟩ => show win0_3.index t (1 : Fin 2) * 128 + 1 * q.val = q.val; omega
  show _ = Cert.Gcn.scaledProduct (V c main_arg0) (V c main_arg2) (V c main_v14) (((cfg0.win 3).blk t).view.emb (ix2 p q))
  rw [hemb, Cert.Gcn.scaledProduct_apply, r2]
  exact congrArg (· * _) (Finset.sum_congr rfl fun kk _ => by rw [r0 kk, r1 kk])

/-- An index of the result array lies in grid point t's block exactly when each coordinate lies in the block's range. -/
theorem mem_blk (t : Fin cfg0.N) (i : S50000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v15).slice (win0_3.rect t)).set ↔ _
  rw [View.set_slice_whole, Rect.mem_set_unit]
  exact Iff.rfl

/-- The five blocks tile the rows: row r lies in block r / 10000. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- THE RESULT ARRAY of the first stage, whatever the buffers hold when the stage is entered: the scaled product of the
    arrays it reads. -/
theorem final (c : Dev nD) :
    (dat0 (F := Ideal) V c).arrAt 3 cfg0.N
      = Cert.Gcn.scaledProduct (V c main_arg0) (V c main_arg2) (V c main_v14) :=
  (dat0 (F := Ideal) V c).arrAt_eq_of_cover 3 _ (fun t _ => flushed_eq V c t) cover

end Cert.KernelIdeal.Region0

end
-- ==== Proof.LibRows.lean ====
/-
  Rows and scalars laid under a matrix, read at an index (generic in the extents): a one-row array broadcast down the
  rows reads its row; a vector re-laid as a one-row array reads the vector; a vector broadcast first to a row and then
  down the rows reads the vector at the column; a scalar constant broadcast to any shape reads the constant.
-/
import Idealize.ShloMosaic.Lib.ValueIdx
import Idealize.ShloMosaic.Lib.Pipeline.Value
import Idealize.ShloMosaic.PureOps.Ideal.Laws

namespace Cert.Lib.Rows

open Idealize.ShloMosaic Idealize.ShloMosaic.ValueIdx

variable {α : Type}

/-- A one-row array broadcast down `m` rows reads its row. -/
theorem broadcastTo_row_apply {m n : Nat} (x : (⟨2, ![1, n]⟩ : Shape).Idx → α)
    (h : (⟨2, ![1, n]⟩ : Shape).Broadcasts ⟨2, ![m, n]⟩) (p : Fin m) (q : Fin n) :
    broadcastTo ⟨2, ![m, n]⟩ x h (ix2 p q) = x (ix2 0 q) := by
  refine broadcastTo_apply x h (ix2 p q) (ix2 0 q) fun a => ?_
  match a with
  | ⟨0, _⟩ => exact (if_pos rfl).symm
  | ⟨1, _⟩ =>
    show q.val = if n = 1 then 0 else q.val
    split
    · have := q.isLt; omega
    · rfl

/-- A vector re-laid as a one-row array reads the vector. -/
theorem shapeCast_row_apply {n : Nat} (b : (⟨1, ![n]⟩ : Shape).Idx → α)
    (h : (⟨1, ![n]⟩ : Shape).ShapeCasts ⟨2, ![1, n]⟩) (q : Fin n) :
    shapeCast ⟨2, ![1, n]⟩ b h (ix2 0 q) = b (ix1 q) := by
  refine shapeCast_apply b h (ix2 0 q) (ix1 q) ?_
  rw [Shape.rowMajor_val_one, Shape.rowMajor_val_two]
  show q.val = 0 * n + q.val
  omega

/-- A vector broadcast to a row, then down the rows, reads the vector at the column. -/
theorem rows_apply {m n : Nat} (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (q : Fin n) :
    broadcastInDim ⟨2, ![m, n]⟩ ![0, 1] h2 (broadcastInDim ⟨2, ![1, n]⟩ ![1] h1 b) (ix2 p q) = b (ix1 q) := by
  rw [broadcastInDim_apply ![0, 1] h2 _ (ix2 p q) (ix2 0 q) (fun a => by
    match a with
    | ⟨0, _⟩ => exact (if_pos rfl).symm
    | ⟨1, _⟩ =>
      show q.val = if n = 1 then 0 else q.val
      split
      · have := q.isLt; omega
      · rfl)]
  exact broadcastInDim_apply ![1] h1 b (ix2 0 q) (ix1 q) (fun a => by
    match a with
    | ⟨0, _⟩ =>
      show q.val = if n = 1 then 0 else q.val
      split
      · have := q.isLt; omega
      · rfl)

/-- A scalar broadcast to any shape reads the scalar. -/
theorem scalar_apply {t : Shape} (x : (⟨0, ![]⟩ : Shape).Idx → α) (h : (⟨0, ![]⟩ : Shape).BroadcastsInDim t ![]) (j : t.Idx) :
    broadcastInDim t ![] h x j = x ix0 :=
  broadcastInDim_apply ![] h x j ix0 (fun a => a.elim0)

end Cert.Lib.Rows
-- ==== Proof.Region1.lean ====
/-
  The second dense stage as one function of whole arrays.

  The stage runs on five blocks of 10000 rows. At block t it reads rows 10000·t … 10000·t + 9999 of the aggregated
  features and of the one-column array of normalising factors, the whole bias row and the whole weight matrix, and writes
  the same rows of its result: entry (p, q) of the block is row p of the features' block scaled by the factor of row p,
  plus the bias row, capped below at zero, times column q of the weights, times the factor of row p again. So entry
  (r, j) of the result array is that expression for node r, whichever block r falls in: `Cert.Gcn.reluLayer`. The five
  blocks tile the 50000 rows.
-/
import proofs.«131309_j50208167690258_2_alg».proof.Proof.Gen.KernelIdeal.Frame
import proofs.«131309_j50208167690258_2_alg».proof.Proof.Spec
import proofs.«131309_j50208167690258_2_alg».proof.Proof.LibDot2
import proofs.«131309_j50208167690258_2_alg».proof.Proof.LibColumn
import proofs.«131309_j50208167690258_2_alg».proof.Proof.LibRows
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block's arithmetic at (p, q): row p of the features' block scaled by the factor of row p, plus the bias row,
    capped below at zero, times column q of the weights, times the factor of row p. -/
theorem pay_at (d : FVec Ideal S10000x1 .f32) (a : FVec Ideal S10000x128 .f32) (b : FVec Ideal S1x128 .f32)
    (w : FVec Ideal S128x64 .f32) (p : Fin 10000) (q : Fin 64) :
    k1_pay1 (F := Ideal) d a b w d (ix2 p q)
      = (∑ kk : Fin 128, max (d (ix2 p (0 : Fin 1)) * a (ix2 p kk) + b (ix2 (0 : Fin 1) kk)) Cert.Gcn.zero32 * w (ix2 kk q))
        * d (ix2 p (0 : Fin 1)) := by
  unfold k1_pay1
  rw [mulf_apply]
  refine congrArg₂ (· * ·) ?_ ?_
  · refine (Cert.Lib.DotSum.matmul_zero_at dot_S10000x128_S128x64_S10000x64_1_0_0_1_n_n rfl rfl rfl rfl rfl rfl none _ w p q).trans ?_
    refine Finset.sum_congr rfl fun kk _ => ?_
    refine congrArg (· * _) ?_
    rw [maximumf_apply, addf_apply, mulf_apply, Cert.Lib.Column.broadcastTo_a1_ab_apply, shapeCast_self, shapeCast_self,
      Cert.Lib.Rows.broadcastTo_row_apply, shapeCast_self, broadcast_apply]
    rfl
  · rw [Cert.Lib.Column.broadcastTo_a1_ab_apply, shapeCast_self]

/-- The printed block index maps over the five grid points: the features, the factors and the result move together down
    the rows; the bias row and the weights stay. -/
theorem idx_facts : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) ≤ 4 ∧ win1_4.index t (1 : Fin 2) = 0 :=
  (by decide +kernel : ∀ t : Fin grid1.N, _)

/-- Every block of rows is some grid point's. -/
theorem idx_onto : ∀ (b : Fin 5), ∃ t : Fin cfg1.N, win1_4.index t = ![b.val, 0] :=
  (by decide +kernel : ∀ (b : Fin 5), ∃ t : Fin grid1.N, win1_4.index t = ![b.val, 0])

/-- What grid point t writes back is block t of the whole-array function. -/
theorem flushed_eq (c : Dev nD) (t : Fin cfg1.N) :
    (dat1 (F := Ideal) V c).flushed 4 t
      = ((cfg1.win 4).blk t).view.read (Elt Ideal)
          (Cert.Gcn.reluLayer (V c main_v25) (V c main_v14) (V c main_v26) (V c main_arg4)) := by
  show (cfg1.win 4).cut (grid1.coords t) ((dat1 (F := Ideal) V c).after 4 t) = _
  rw [after1_4]
  unfold out1_4
  rw [View.canon_unit_zero hz]
  simp only [View.ld_unit_zero (S := S10000x1) hz, View.ld_unit_zero (S := S10000x128) hz,
    View.ld_unit_zero (S := S1x128) hz, View.ld_unit_zero (S := S128x64) hz]
  obtain ⟨e0, e1, e2, e3, e4, e5, e6, e7, e8, e9⟩ := idx_facts t
  funext j
  obtain ⟨p, q, rfl⟩ : ∃ (p : Fin 10000) (q : Fin 64), j = ix2 p q := ⟨j 0, j 1, eq_ix2 j⟩
  refine (pay_at (iblk1 V c 1 t) (iblk1 V c 0 t) (iblk1 V c 2 t) (iblk1 V c 3 t) p q).trans ?_
  have hr : win1_4.index t (0 : Fin 2) * 10000 + p.val < 50000 := by have := p.isLt; omega
  have r0 : ∀ kk : Fin 128, iblk1 V c 0 t (ix2 p kk)
      = V c main_v25 (ix2 (⟨win1_4.index t (0 : Fin 2) * 10000 + p.val, hr⟩ : Fin 50000) kk) := by
    intro kk
    show V c main_v25 (((cfg1.win 0).blk t).view.emb (ix2 p kk)) = _
    refine congrArg _ (funext fun a => Fin.ext ?_)
    match a with
    | ⟨0, _⟩ => show win1_0.index t (0 : Fin 2) * 10000 + 1 * p.val = win1_4.index t (0 : Fin 2) * 10000 + p.val; omega
    | ⟨1, _⟩ => show win1_0.index t (1 : Fin 2) * 128 + 1 * kk.val = kk.val; omega
  have r1 : iblk1 V c 1 t (ix2 p (0 : Fin 1))
      = V c main_v14 (ix2 (⟨win1_4.index t (0 : Fin 2) * 10000 + p.val, hr⟩ : Fin 50000) (0 : Fin 1)) := by
    show V c main_v14 (((cfg1.win 1).blk t).view.emb (ix2 p (0 : Fin 1))) = _
    refine congrArg _ (funext fun a => Fin.ext ?_)
    match a with
    | ⟨0, _⟩ => show win1_1.index t (0 : Fin 2) * 10000 + 1 * p.val = win1_4.index t (0 : Fin 2) * 10000 + p.val; omega
    | ⟨1, _⟩ => show win1_1.index t (1 : Fin 2) * 1 + 1 * 0 = 0; omega
  have r2 : ∀ kk : Fin 128, iblk1 V c 2 t (ix2 (0 : Fin 1) kk) = V c main_v26 (ix2 (0 : Fin 1) kk) := by
    intro kk
    show V c main_v26 (((cfg1.win 2).blk t).view.emb (ix2 (0 : Fin 1) kk)) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * kk.val = kk.val; omega
  have r3 : ∀ kk : Fin 128, iblk1 V c 3 t (ix2 kk q) = V c main_arg4 (ix2 kk q) := by
    intro kk
    show V c main_arg4 (((cfg1.win 3).blk t).view.emb (ix2 kk q)) = _
    refine congrArg _ (funext fun a => Fin.ext ?_)
    match a with
    | ⟨0, _⟩ => show win1_3.index t (0 : Fin 2) * 128 + 1 * kk.val = kk.val; omega
    | ⟨1, _⟩ => show win1_3.index t (1 : Fin 2) * 64 + 1 * q.val = q.val; omega
  have hemb : ((cfg1.win 4).blk t).view.emb (ix2 p q)
      = ix2 (⟨win1_4.index t (0 : Fin 2) * 10000 + p.val, hr⟩ : Fin 50000) q := by
    funext a; refine Fin.ext ?_
    match a with
    | ⟨0, _⟩ => show win1_4.index t (0 : Fin 2) * 10000 + 1 * p.val = win1_4.index t (0 : Fin 2) * 10000 + p.val; omega
    | ⟨1, _⟩ => show win1_4.index t (1 : Fin 2) * 64 + 1 * q.val = q.val; omega
  show _ = Cert.Gcn.reluLayer (V c main_v25) (V c main_v14) (V c main_v26) (V c main_arg4) (((cfg1.win 4).blk t).view.emb (ix2 p q))
  rw [hemb, Cert.Gcn.reluLayer_apply, r1]
  exact congrArg (· * _) (Finset.sum_congr rfl fun kk _ => by rw [r0 kk, r2 kk, r3 kk])

/-- An index of the result array lies in grid point t's block exactly when each coordinate lies in the block's range. -/
theorem mem_blk (t : Fin cfg1.N) (i : S50000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v27).slice (win1_4.rect t)).set ↔ _
  rw [View.set_slice_whole, Rect.mem_set_unit]
  exact Iff.rfl

/-- The five blocks tile the rows: row r lies in block r / 10000. -/
theorem cover (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ := idx_onto ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

/-- THE RESULT ARRAY of the second stage, whatever the buffers hold when the stage is entered: the capped, scaled
    product of the arrays it reads. -/
theorem final (c : Dev nD) :
    (dat1 (F := Ideal) V c).arrAt 4 cfg1.N
      = Cert.Gcn.reluLayer (V c main_v25) (V c main_v14) (V c main_v26) (V c main_arg4) :=
  (dat1 (F := Ideal) V c).arrAt_eq_of_cover 4 _ (fun t _ => flushed_eq V c t) cover

end Cert.KernelIdeal.Region1

end
-- ==== Proof.Region2.lean ====
/-
  The last stage as one function of whole arrays.

  The stage runs on five blocks of 10000 rows. At block t it reads rows 10000·t … 10000·t + 9999 of the aggregated
  features and of the one-column array of normalising factors, and the whole bias row, and writes the same rows of its
  result: entry (p, q) of the block is the softmax, at column q, of row p of the block scaled by the factor of row p plus
  the bias row — the exponential of the entry's distance to the row's maximum over the sum of those exponentials along
  the row. So entry (r, j) of the result array is the softmax at j of row r scaled by the factor of node r plus the bias,
  whichever block r falls in: `Cert.Gcn.softmaxLayer`. The five blocks tile the 50000 rows.
-/
import proofs.«131309_j50208167690258_2_alg».proof.Proof.Gen.KernelIdeal.Frame
import proofs.«131309_j50208167690258_2_alg».proof.Proof.Spec
import proofs.«131309_j50208167690258_2_alg».proof.Proof.LibColumn
import proofs.«131309_j50208167690258_2_alg».proof.Proof.LibRows
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The row index (p) with the coordinate k put back on the reduced axis is (p, k). -/
theorem lift_eq (p : Fin 10000) (k : Fin 64) :
    reduces_S10000x64_S10000.lift (ix1 p) k = ix2 p k := by
  funext a; refine Fin.ext ?_
  match a with
  | ⟨0, _⟩ => rfl
  | ⟨1, _⟩ => rfl

/-- The maximum along the rows, read at row p: the row's maximum taken from minus infinity. -/
theorem rowmax_at (v : FVec Ideal S10000x64 .f32) (p : Fin 10000) :
    multiReduction (F := Ideal) .maximumf [1] S10000 v 0xFF800000#32 reduces_S10000x64_S10000 (.inl rfl) rfl (ix1 p)
      = Cert.Gcn.rowMax (fun k => v (ix2 p k)) := by
  refine (Ideal.multiReduction_maximumf_single v _ reduces_S10000x64_S10000 (.inl rfl) rfl (ix1 p)).trans ?_
  have hf : (v ∘ reduces_S10000x64_S10000.lift (ix1 p)) = fun k : Fin 64 => v (ix2 p k) :=
    funext fun k => congrArg v (lift_eq p k)
  rw [hf]
  rfl

/-- The sum along the rows, read at row p: the row's sum. -/
theorem rowsum_at (v : FVec Ideal S10000x64 .f32) (p : Fin 10000) :
    multiReduction (F := Ideal) .add [1] S10000 v 0x00000000#32 reduces_S10000x64_S10000 (.inl rfl) rfl (ix1 p)
      = ∑ k : Fin 64, v (ix2 p k) := by
  refine (Ideal.multiReduction_add_single v _ reduces_S10000x64_S10000 (.inl rfl) rfl (ix1 p)).trans ?_
  exact Finset.sum_congr rfl fun k _ => congrArg v (lift_eq p k)

/-- The scaled rows plus the bias row, at (p, k): the factor of row p times the entry, plus the bias of column k. -/
theorem affine_at (d : FVec Ideal S10000x1 .f32) (a : FVec Ideal S10000x64 .f32) (b : FVec Ideal S1x64 .f32)
    (p : Fin 10000) (k : Fin 64) :
    addf (mulf (broadcastTo S10000x64 (shapeCast S10000x1 d shapeCasts_S10000x1_S10000x1) broadcasts_S10000x1_S10000x64)
                (shapeCast S10000x64 a shapeCasts_S10000x64_S10000x64))
         (broadcastTo S10000x64 (shapeCast S1x64 b shapeCasts_S1x64_S1x64) broadcasts_S1x64_S10000x64) (ix2 p k)
      = d (ix2 p (0 : Fin 1)) * a (ix2 p k) + b (ix2 (0 : Fin 1) k) := by
  rw [addf_apply, mulf_apply, Cert.Lib.Column.broadcastTo_a1_ab_apply, Cert.Lib.Rows.broadcastTo_row_apply,
    shapeCast_self, shapeCast_self, shapeCast_self]

/-- The exponential of an entry's distance to its row's maximum, at (p, k). -/
theorem expdist_at (v : FVec Ideal S10000x64 .f32) (p : Fin 10000) (k : Fin 64) :
    exp (subf v (broadcastTo S10000x64 (shapeCast S10000x1
        (multiReduction (F := Ideal) .maximumf [1] S10000 v 0xFF800000#32 reduces_S10000x64_S10000 (.inl rfl) rfl)
        shapeCasts_S10000_S10000x1) broadcasts_S10000x1_S10000x64)) (ix2 p k)
      = Ideal.exp (v (ix2 p k) - Cert.Gcn.rowMax (fun k' => v (ix2 p k'))) := by
  show Ideal.exp (subf v _ (ix2 p k)) = _
  rw [subf_apply, Cert.Lib.Column.broadcastTo_a1_ab_apply, Cert.Lib.Column.shapeCast_a_a1_apply, rowmax_at]

/-- The rows' softmax as the block computes it, at (p, q). -/
theorem softmax_at (v : FVec Ideal S10000x64 .f32) (p : Fin 10000) (q : Fin 64) :
    divf (exp (subf v (broadcastTo S10000x64 (shapeCast S10000x1
            (multiReduction (F := Ideal) .maximumf [1] S10000 v 0xFF800000#32 reduces_S10000x64_S10000 (.inl rfl) rfl)
            shapeCasts_S10000_S10000x1) broadcasts_S10000x1_S10000x64)))
         (broadcastTo S10000x64 (shapeCast S10000x1
            (multiReduction (F := Ideal) .add [1] S10000
              (exp (subf v (broadcastTo S10000x64 (shapeCast S10000x1
                (multiReduction (F := Ideal) .maximumf [1] S10000 v 0xFF800000#32 reduces_S10000x64_S10000 (.inl rfl) rfl)
                shapeCasts_S10000_S10000x1) broadcasts_S10000x1_S10000x64)))
              0x00000000#32 reduces_S10000x64_S10000 (.inl rfl) rfl)
            shapeCasts_S10000_S10000x1) broadcasts_S10000x1_S10000x64) (ix2 p q)
      = Cert.Gcn.softmaxRow (fun k => v (ix2 p k)) q := by
  rw [divf_apply, Cert.Lib.Column.broadcastTo_a1_ab_apply, Cert.Lib.Column.shapeCast_a_a1_apply, rowsum_at, expdist_at]
  unfold Cert.Gcn.softmaxRow
  exact congrArg (Ideal.div _) (Finset.sum_congr rfl fun k _ => expdist_at v p k)

/-- The block's arithmetic at (p, q): the softmax of row p of the scaled block plus the bias row, at column q. -/
theorem pay_at (d : FVec Ideal S10000x1 .f32) (a : FVec Ideal S10000x64 .f32) (b : FVec Ideal S1x64 .f32)
    (p : Fin 10000) (q : Fin 64) :
    k2_pay1 (F := Ideal) d a b (ix2 p q)
      = Cert.Gcn.softmaxRow (fun q' => d (ix2 p (0 : Fin 1)) * a (ix2 p q') + b (ix2 (0 : Fin 1) q')) q := by
  unfold k2_pay1
  refine (softmax_at _ p q).trans ?_
  exact congrArg (fun z => Cert.Gcn.softmaxRow z q) (funext fun k => affine_at d a b p k)

/-- The printed block index maps over the five grid points: the scattered sums, the factors and the result move together
    down the rows; the bias row stays. -/
theorem idx_facts : ∀ t : Fin cfg2.N,
    win2_0.index t (0 : Fin 2) = win2_3.index t (0 : Fin 2) ∧ win2_0.index t (1 : Fin 2) = 0
    ∧ win2_1.index t (0 : Fin 2) = win2_3.index t (0 : Fin 2) ∧ win2_1.index t (1 : Fin 2) = 0
    ∧ win2_2.index t (0 : Fin 2) = 0 ∧ win2_2.index t (1 : Fin 2) = 0
    ∧ win2_3.index t (0 : Fin 2) ≤ 4 ∧ win2_3.index t (1 : Fin 2) = 0 :=
  (by decide +kernel : ∀ t : Fin grid2.N, _)

/-- Every block of rows is some grid point's. -/
theorem idx_onto : ∀ (b : Fin 5), ∃ t : Fin cfg2.N, win2_3.index t = ![b.val, 0] :=
  (by decide +kernel : ∀ (b : Fin 5), ∃ t : Fin grid2.N, win2_3.index t = ![b.val, 0])

/-- What grid point t writes back is block t of the whole-array function. -/
theorem flushed_eq (c : Dev nD) (t : Fin cfg2.N) :
    (dat2 (F := Ideal) V c).flushed 3 t
      = ((cfg2.win 3).blk t).view.read (Elt Ideal)
          (Cert.Gcn.softmaxLayer (V c main_v37) (V c main_v14) (V c main_v38)) := by
  show (cfg2.win 3).cut (grid2.coords t) ((dat2 (F := Ideal) V c).after 3 t) = _
  rw [after2_3]
  unfold out2_3
  rw [View.canon_unit_zero hz]
  simp only [View.ld_unit_zero (S := S10000x64) hz, View.ld_unit_zero (S := S10000x1) hz, View.ld_unit_zero (S := S1x64) hz]
  obtain ⟨e0, e1, e2, e3, e4, e5, e6, e7⟩ := idx_facts t
  funext j
  obtain ⟨p, q, rfl⟩ : ∃ (p : Fin 10000) (q : Fin 64), j = ix2 p q := ⟨j 0, j 1, eq_ix2 j⟩
  refine (pay_at (iblk2 V c 1 t) (iblk2 V c 0 t) (iblk2 V c 2 t) p q).trans ?_
  have hr : win2_3.index t (0 : Fin 2) * 10000 + p.val < 50000 := by have := p.isLt; omega
  have r0 : ∀ k : Fin 64, iblk2 V c 0 t (ix2 p k)
      = V c main_v37 (ix2 (⟨win2_3.index t (0 : Fin 2) * 10000 + p.val, hr⟩ : Fin 50000) k) := by
    intro k
    show V c main_v37 (((cfg2.win 0).blk t).view.emb (ix2 p k)) = _
    refine congrArg _ (funext fun a => Fin.ext ?_)
    match a with
    | ⟨0, _⟩ => show win2_0.index t (0 : Fin 2) * 10000 + 1 * p.val = win2_3.index t (0 : Fin 2) * 10000 + p.val; omega
    | ⟨1, _⟩ => show win2_0.index t (1 : Fin 2) * 64 + 1 * k.val = k.val; omega
  have r1 : iblk2 V c 1 t (ix2 p (0 : Fin 1))
      = V c main_v14 (ix2 (⟨win2_3.index t (0 : Fin 2) * 10000 + p.val, hr⟩ : Fin 50000) (0 : Fin 1)) := by
    show V c main_v14 (((cfg2.win 1).blk t).view.emb (ix2 p (0 : Fin 1))) = _
    refine congrArg _ (funext fun a => Fin.ext ?_)
    match a with
    | ⟨0, _⟩ => show win2_1.index t (0 : Fin 2) * 10000 + 1 * p.val = win2_3.index t (0 : Fin 2) * 10000 + p.val; omega
    | ⟨1, _⟩ => show win2_1.index t (1 : Fin 2) * 1 + 1 * 0 = 0; omega
  have r2 : ∀ k : Fin 64, iblk2 V c 2 t (ix2 (0 : Fin 1) k) = V c main_v38 (ix2 (0 : Fin 1) k) := by
    intro k
    show V c main_v38 (((cfg2.win 2).blk t).view.emb (ix2 (0 : Fin 1) k)) = _
    refine congrArg _ (funext fun a => Fin.ext ?_)
    match a with
    | ⟨0, _⟩ => show win2_2.index t (0 : Fin 2) * 1 + 1 * 0 = 0; omega
    | ⟨1, _⟩ => show win2_2.index t (1 : Fin 2) * 64 + 1 * k.val = k.val; omega
  have hemb : ((cfg2.win 3).blk t).view.emb (ix2 p q)
      = ix2 (⟨win2_3.index t (0 : Fin 2) * 10000 + p.val, hr⟩ : Fin 50000) q := by
    funext a; refine Fin.ext ?_
    match a with
    | ⟨0, _⟩ => show win2_3.index t (0 : Fin 2) * 10000 + 1 * p.val = win2_3.index t (0 : Fin 2) * 10000 + p.val; omega
    | ⟨1, _⟩ => show win2_3.index t (1 : Fin 2) * 64 + 1 * q.val = q.val; omega
  show _ = Cert.Gcn.softmaxLayer (V c main_v37) (V c main_v14) (V c main_v38) (((cfg2.win 3).blk t).view.emb (ix2 p q))
  rw [hemb, Cert.Gcn.softmaxLayer_apply]
  exact congrArg (fun z => Cert.Gcn.softmaxRow z q) (funext fun k => by rw [r0 k, r1, r2 k])

/-- An index of the result array lies in grid point t's block exactly when each coordinate lies in the block's range. -/
theorem mem_blk (t : Fin cfg2.N) (i : S50000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v39).slice (win2_3.rect t)).set ↔ _
  rw [View.set_slice_whole, Rect.mem_set_unit]
  exact Iff.rfl

/-- The five blocks tile the rows: row r lies in block r / 10000. -/
theorem cover (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  obtain ⟨t, ht⟩ := idx_onto ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- THE RESULT ARRAY of the last stage, whatever the buffers hold when the stage is entered: the softmax layer of the
    arrays it reads. -/
theorem final (c : Dev nD) :
    (dat2 (F := Ideal) V c).arrAt 3 cfg2.N
      = Cert.Gcn.softmaxLayer (V c main_v37) (V c main_v14) (V c main_v38) :=
  (dat2 (F := Ideal) V c).arrAt_eq_of_cover 3 _ (fun t _ => flushed_eq V c t) cover

end Cert.KernelIdeal.Region2

end
-- ==== Proof.KValue.lean ====
/-
  The kernel program's result array as one term of its arguments.

  The program is three stretches of host operations with a pipelined stage after each. The buffer contents are followed
  through it: the first stretch builds the source and destination index rows (the edge list with one self-loop per node
  appended) and the nodes' normalising factors; the first stage leaves the scaled product of the features; the second
  stretch gathers its rows at the source indices and adds them up at the destination indices; the second stage leaves the
  capped, re-multiplied and re-scaled rows; the third stretch gathers and adds up again; the last stage leaves each row's
  softmax. The index rows and the factors are the same operations as the reference program's, so they are named by the
  reference's stage functions.
-/
import proofs.«131309_j50208167690258_2_alg».proof.Proof.Gen.KernelIdeal.Frame
import proofs.«131309_j50208167690258_2_alg».proof.Proof.Gen.ReferenceIdeal.Read
import proofs.«131309_j50208167690258_2_alg».proof.Proof.Region0
import proofs.«131309_j50208167690258_2_alg».proof.Proof.Region1
import proofs.«131309_j50208167690258_2_alg».proof.Proof.Region2
import proofs.«131309_j50208167690258_2_alg».proof.Proof.Spec

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo
open Idealize.ShloMosaic.ValueIdx

variable (m : (ℓ : Loc nD τ sig) → Buf (Elt Ideal) ℓ) (ρ : Dev nD → PrngReg) (c : Dev nD)

/-! ## The first stretch of host operations: the index rows, the normalising factors -/

theorem W1_v3 : W1 m ρ c (Proc.devRef .tc main_v3) = Cert.ReferenceIdeal.Read.val_main_v3 (F := Ideal) (m ((c.tc : Thread nD τ).loc main_arg1)) := by
  show StableHlo.after hostOps0 (W0 m ρ c) (Proc.devRef .tc main_v3) = _
  after_results_simp <;> rfl

theorem W1_v6 : W1 m ρ c (Proc.devRef .tc main_v6) = Cert.ReferenceIdeal.Read.val_main_v6 (F := Ideal) (m ((c.tc : Thread nD τ).loc main_arg1)) := by
  show StableHlo.after hostOps0 (W0 m ρ c) (Proc.devRef .tc main_v6) = _
  after_results_simp <;> rfl

/-- The one-column array of the nodes' normalising factors. -/
abbrev dcol (x1 : (⟨Cert.ReferenceIdeal.S2x800000, .i32⟩ : BufTy).Contents (Elt Ideal)) : Cert.Gcn.A2 50000 1 :=
  shapeCast S50000x1 (Cert.ReferenceIdeal.Read.val_main_v13 (F := Ideal) x1) shapeCasts_S50000_S50000x1

theorem W1_v14 : W1 m ρ c (Proc.devRef .tc main_v14) = dcol (m ((c.tc : Thread nD τ).loc main_arg1)) := by
  show StableHlo.after hostOps0 (W0 m ρ c) (Proc.devRef .tc main_v14) = _
  after_results_simp <;> rfl

theorem W1_arg0 : W1 m ρ c (Proc.devRef .tc main_arg0) = m ((c.tc : Thread nD τ).loc main_arg0) := by
  show StableHlo.after hostOps0 (W0 m ρ c) (Proc.devRef .tc main_arg0) = _
  after_results_simp <;> rfl
theorem W1_arg2 : W1 m ρ c (Proc.devRef .tc main_arg2) = m ((c.tc : Thread nD τ).loc main_arg2) := by
  show StableHlo.after hostOps0 (W0 m ρ c) (Proc.devRef .tc main_arg2) = _
  after_results_simp <;> rfl
theorem W1_arg3 : W1 m ρ c (Proc.devRef .tc main_arg3) = m ((c.tc : Thread nD τ).loc main_arg3) := by
  show StableHlo.after hostOps0 (W0 m ρ c) (Proc.devRef .tc main_arg3) = _
  after_results_simp <;> rfl
theorem W1_arg4 : W1 m ρ c (Proc.devRef .tc main_arg4) = m ((c.tc : Thread nD τ).loc main_arg4) := by
  show StableHlo.after hostOps0 (W0 m ρ c) (Proc.devRef .tc main_arg4) = _
  after_results_simp <;> rfl
theorem W1_arg5 : W1 m ρ c (Proc.devRef .tc main_arg5) = m ((c.tc : Thread nD τ).loc main_arg5) := by
  show StableHlo.after hostOps0 (W0 m ρ c) (Proc.devRef .tc main_arg5) = _
  after_results_simp <;> rfl

/-! ## The first stage's exit -/

/-- The first stage's result: the scaled product of the features and the first weight matrix. -/
abbrev K1 (x0 : Cert.Gcn.A2 50000 128) (x1 : (⟨Cert.ReferenceIdeal.S2x800000, .i32⟩ : BufTy).Contents (Elt Ideal)) (x2 : Cert.Gcn.A2 128 128) : Cert.Gcn.A2 50000 128 :=
  Cert.Gcn.scaledProduct x0 x2 (dcol x1)

theorem W2_v15 : W2 m ρ c (Proc.devRef .tc main_v15)
    = K1 (m ((c.tc : Thread nD τ).loc main_arg0)) (m ((c.tc : Thread nD τ).loc main_arg1)) (m ((c.tc : Thread nD τ).loc main_arg2)) := by
  refine (W2_arr m ρ c 3).trans ((Cert.KernelIdeal.Region0.final (V1 m ρ) c).trans ?_)
  show Cert.Gcn.scaledProduct (W1 m ρ c (Proc.devRef .tc main_arg0)) (W1 m ρ c (Proc.devRef .tc main_arg2)) (W1 m ρ c (Proc.devRef .tc main_v14)) = _
  rw [W1_arg0, W1_arg2, W1_v14]

theorem W2_v3 : W2 m ρ c (Proc.devRef .tc main_v3) = Cert.ReferenceIdeal.Read.val_main_v3 (F := Ideal) (m ((c.tc : Thread nD τ).loc main_arg1)) :=
  (W2_of_ne m ρ c main_v3 (by decide)).trans (W1_v3 m ρ c)
theorem W2_v6 : W2 m ρ c (Proc.devRef .tc main_v6) = Cert.ReferenceIdeal.Read.val_main_v6 (F := Ideal) (m ((c.tc : Thread nD τ).loc main_arg1)) :=
  (W2_of_ne m ρ c main_v6 (by decide)).trans (W1_v6 m ρ c)
theorem W2_v14 : W2 m ρ c (Proc.devRef .tc main_v14) = dcol (m ((c.tc : Thread nD τ).loc main_arg1)) :=
  (W2_arr m ρ c 2).trans (((dat0 (V1 m ρ) c).arrAt_in 2 rfl _).trans ((A_eq0 (V1 m ρ) c 2).trans (W1_v14 m ρ c)))
theorem W2_arg3 : W2 m ρ c (Proc.devRef .tc main_arg3) = m ((c.tc : Thread nD τ).loc main_arg3) :=
  (W2_of_ne m ρ c main_arg3 (by decide)).trans (W1_arg3 m ρ c)
theorem W2_arg4 : W2 m ρ c (Proc.devRef .tc main_arg4) = m ((c.tc : Thread nD τ).loc main_arg4) :=
  (W2_of_ne m ρ c main_arg4 (by decide)).trans (W1_arg4 m ρ c)
theorem W2_arg5 : W2 m ρ c (Proc.devRef .tc main_arg5) = m ((c.tc : Thread nD τ).loc main_arg5) :=
  (W2_of_ne m ρ c main_arg5 (by decide)).trans (W1_arg5 m ρ c)

/-! ## The second stretch: gather the source rows, add them up at the destination rows -/

/-- Rows gathered at the normalised source indices and added up at the destination indices, from zero (128 columns). -/
abbrev agg128 (x1 : (⟨Cert.ReferenceIdeal.S2x800000, .i32⟩ : BufTy).Contents (Elt Ideal)) (h : FVec Ideal Cert.ReferenceIdeal.S50000x128 .f32) : FVec Ideal Cert.ReferenceIdeal.S50000x128 .f32 :=
  Host.scatterAdd (F := Ideal) (φ := .f32) Cert.ReferenceIdeal.scatter_S50000x128_S850000x1_S850000x128_1_0_0_1
    (Cert.ReferenceIdeal.Read.val_main_v40 (F := Ideal)) (Cert.ReferenceIdeal.Read.val_main_v41 (F := Ideal) x1)
    (Host.gather Cert.ReferenceIdeal.gather_S50000x128_S850000x1_S850000x128_1_0_n_n_0_1_1128 h (Cert.ReferenceIdeal.Read.val_main_v35 (F := Ideal) x1))

theorem W3_v25 : W3 m ρ c (Proc.devRef .tc main_v25)
    = agg128 (m ((c.tc : Thread nD τ).loc main_arg1)) (K1 (m ((c.tc : Thread nD τ).loc main_arg0)) (m ((c.tc : Thread nD τ).loc main_arg1)) (m ((c.tc : Thread nD τ).loc main_arg2))) := by
  show StableHlo.after hostOps1 (W2 m ρ c) (Proc.devRef .tc main_v25) = _
  after_results_simp
  rw [W2_v3, W2_v6, W2_v15]
  rfl

theorem W3_v14 : W3 m ρ c (Proc.devRef .tc main_v14) = dcol (m ((c.tc : Thread nD τ).loc main_arg1)) := by
  show StableHlo.after hostOps1 (W2 m ρ c) (Proc.devRef .tc main_v14) = _
  after_results_simp
  exact W2_v14 m ρ c
theorem W3_v26 : W3 m ρ c (Proc.devRef .tc main_v26) = shapeCast S1x128 (m ((c.tc : Thread nD τ).loc main_arg3)) shapeCasts_S128_S1x128 := by
  show StableHlo.after hostOps1 (W2 m ρ c) (Proc.devRef .tc main_v26) = _
  after_results_simp
  rw [W2_arg3]
  rfl
theorem W3_arg4 : W3 m ρ c (Proc.devRef .tc main_arg4) = (m ((c.tc : Thread nD τ).loc main_arg4)) := by
  show StableHlo.after hostOps1 (W2 m ρ c) (Proc.devRef .tc main_arg4) = _
  after_results_simp
  exact W2_arg4 m ρ c
theorem W3_arg5 : W3 m ρ c (Proc.devRef .tc main_arg5) = (m ((c.tc : Thread nD τ).loc main_arg5)) := by
  show StableHlo.after hostOps1 (W2 m ρ c) (Proc.devRef .tc main_arg5) = _
  after_results_simp
  exact W2_arg5 m ρ c
theorem W3_v3 : W3 m ρ c (Proc.devRef .tc main_v3) = Cert.ReferenceIdeal.Read.val_main_v3 (F := Ideal) (m ((c.tc : Thread nD τ).loc main_arg1)) := by
  show StableHlo.after hostOps1 (W2 m ρ c) (Proc.devRef .tc main_v3) = _
  after_results_simp
  exact W2_v3 m ρ c
theorem W3_v6 : W3 m ρ c (Proc.devRef .tc main_v6) = Cert.ReferenceIdeal.Read.val_main_v6 (F := Ideal) (m ((c.tc : Thread nD τ).loc main_arg1)) := by
  show StableHlo.after hostOps1 (W2 m ρ c) (Proc.devRef .tc main_v6) = _
  after_results_simp
  exact W2_v6 m ρ c

/-! ## The second stage's exit -/

/-- The second stage's result. -/
abbrev K2 (x0 : Cert.Gcn.A2 50000 128) (x1 : (⟨Cert.ReferenceIdeal.S2x800000, .i32⟩ : BufTy).Contents (Elt Ideal)) (x2 : Cert.Gcn.A2 128 128) (x3 : Cert.Gcn.A1 128) (x4 : Cert.Gcn.A2 128 64) : Cert.Gcn.A2 50000 64 :=
  Cert.Gcn.reluLayer (agg128 x1 (K1 x0 x1 x2)) (dcol x1) (shapeCast S1x128 x3 shapeCasts_S128_S1x128) x4

theorem W4_v27 : W4 m ρ c (Proc.devRef .tc main_v27) = K2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W4_arr m ρ c 4).trans ((Cert.KernelIdeal.Region1.final (V3 m ρ) c).trans ?_)
  show Cert.Gcn.reluLayer (W3 m ρ c (Proc.devRef .tc main_v25)) (W3 m ρ c (Proc.devRef .tc main_v14)) (W3 m ρ c (Proc.devRef .tc main_v26)) (W3 m ρ c (Proc.devRef .tc main_arg4)) = _
  rw [W3_v25, W3_v14, W3_v26, W3_arg4]

theorem W4_v3 : W4 m ρ c (Proc.devRef .tc main_v3) = Cert.ReferenceIdeal.Read.val_main_v3 (F := Ideal) (m ((c.tc : Thread nD τ).loc main_arg1)) :=
  (W4_of_ne m ρ c main_v3 (by decide)).trans (W3_v3 m ρ c)
theorem W4_v6 : W4 m ρ c (Proc.devRef .tc main_v6) = Cert.ReferenceIdeal.Read.val_main_v6 (F := Ideal) (m ((c.tc : Thread nD τ).loc main_arg1)) :=
  (W4_of_ne m ρ c main_v6 (by decide)).trans (W3_v6 m ρ c)
theorem W4_v14 : W4 m ρ c (Proc.devRef .tc main_v14) = dcol (m ((c.tc : Thread nD τ).loc main_arg1)) :=
  (W4_arr m ρ c 1).trans (((dat1 (V3 m ρ) c).arrAt_in 1 rfl _).trans ((A_eq1 (V3 m ρ) c 1).trans (W3_v14 m ρ c)))
theorem W4_arg5 : W4 m ρ c (Proc.devRef .tc main_arg5) = (m ((c.tc : Thread nD τ).loc main_arg5)) :=
  (W4_of_ne m ρ c main_arg5 (by decide)).trans (W3_arg5 m ρ c)

/-! ## The third stretch: gather and add up again, 64 columns -/

abbrev agg64 (x1 : (⟨Cert.ReferenceIdeal.S2x800000, .i32⟩ : BufTy).Contents (Elt Ideal)) (h : FVec Ideal Cert.ReferenceIdeal.S50000x64 .f32) : FVec Ideal Cert.ReferenceIdeal.S50000x64 .f32 :=
  Host.scatterAdd (F := Ideal) (φ := .f32) Cert.ReferenceIdeal.scatter_S50000x64_S850000x1_S850000x64_1_0_0_1
    (Cert.ReferenceIdeal.Read.val_main_v58 (F := Ideal)) (Cert.ReferenceIdeal.Read.val_main_v59 (F := Ideal) x1)
    (Host.gather Cert.ReferenceIdeal.gather_S50000x64_S850000x1_S850000x64_1_0_n_n_0_1_164 h (Cert.ReferenceIdeal.Read.val_main_v53 (F := Ideal) x1))

theorem W5_v37 : W5 m ρ c (Proc.devRef .tc main_v37) = agg64 (m ((c.tc : Thread nD τ).loc main_arg1)) (K2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  show StableHlo.after hostOps2 (W4 m ρ c) (Proc.devRef .tc main_v37) = _
  after_results_simp
  rw [W4_v3, W4_v6, W4_v27]
  rfl
theorem W5_v14 : W5 m ρ c (Proc.devRef .tc main_v14) = dcol (m ((c.tc : Thread nD τ).loc main_arg1)) := by
  show StableHlo.after hostOps2 (W4 m ρ c) (Proc.devRef .tc main_v14) = _
  after_results_simp
  exact W4_v14 m ρ c
theorem W5_v38 : W5 m ρ c (Proc.devRef .tc main_v38) = shapeCast S1x64 (m ((c.tc : Thread nD τ).loc main_arg5)) shapeCasts_S64_S1x64 := by
  show StableHlo.after hostOps2 (W4 m ρ c) (Proc.devRef .tc main_v38) = _
  after_results_simp
  rw [W4_arg5]
  rfl

/-! ## The result -/

/-- The kernel program's result as one term of its arguments. -/
abbrev K3 (x0 : Cert.Gcn.A2 50000 128) (x1 : (⟨Cert.ReferenceIdeal.S2x800000, .i32⟩ : BufTy).Contents (Elt Ideal)) (x2 : Cert.Gcn.A2 128 128) (x3 : Cert.Gcn.A1 128) (x4 : Cert.Gcn.A2 128 64) (x5 : Cert.Gcn.A1 64) : Cert.Gcn.A2 50000 64 :=
  Cert.Gcn.softmaxLayer (agg64 x1 (K2 x0 x1 x2 x3 x4)) (dcol x1) (shapeCast S1x64 x5 shapeCasts_S64_S1x64)

/-- THE KERNEL'S RESULT ARRAY after the run. -/
theorem kernel_value : W6 m ρ c (Proc.devRef .tc main_v39) = K3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W6_arr m ρ c 3).trans ((Cert.KernelIdeal.Region2.final (V5 m ρ) c).trans ?_)
  show Cert.Gcn.softmaxLayer (W5 m ρ c (Proc.devRef .tc main_v37)) (W5 m ρ c (Proc.devRef .tc main_v14)) (W5 m ρ c (Proc.devRef .tc main_v38)) = _
  rw [W5_v37, W5_v14, W5_v38]

end Cert.KernelIdeal.KValue

end
-- ==== Proof.RefRead.lean ====
/-
  The reference program's stages read at an index built from coordinates: the two matrix products as sums over the
  contracted coordinate, the bias additions, the cap at zero, the scalings by the edge weight, the zero arrays the
  scatters start from, and the closing row-wise softmax as the softmax of the row of pre-activations.
-/
import proofs.«131309_j50208167690258_2_alg».proof.Proof.Gen.ReferenceIdeal.Read
import proofs.«131309_j50208167690258_2_alg».proof.Proof.Spec
import Idealize.ShloMosaic.Lib.ValueIdx
import Idealize.ShloMosaic.PureOps.Ideal.Laws
import Idealize.ShloMosaic.PureOps.Reduce

noncomputable section

open scoped BigOperators

namespace Cert.ReferenceIdeal.RefRead

open Cert.ReferenceIdeal Cert.ReferenceIdeal.Read Idealize.ShloMosaic Idealize.ShloMosaic.ValueIdx

/-- The first product: entry (n, j) is the sum over k of x0 (n, k) times x2 (k, j). -/
theorem v29_apply (x0 : (⟨S50000x128, .f32⟩ : BufTy).Contents (Elt Ideal)) (x2 : (⟨S128x128, .f32⟩ : BufTy).Contents (Elt Ideal)) (n : Fin 50000) (j : Fin 128) :
    val_main_v29 (F := Ideal) x0 x2 (ix2 n j) = ∑ k : Fin 128, x0 (ix2 n k) * x2 (ix2 k j) := by
  rw [val_main_v29_apply]
  refine Finset.sum_congr rfl fun k _ => ?_
  have el : lidx_main_v29 (ix2 n j) k = ix2 n k :=
    funext fun a => Fin.ext (by match a with | ⟨0, _⟩ => rfl | ⟨1, _⟩ => rfl)
  have er : ridx_main_v29 (ix2 n j) k = ix2 k j :=
    funext fun a => Fin.ext (by match a with | ⟨0, _⟩ => rfl | ⟨1, _⟩ => rfl)
  rw [el, er]

/-- The first layer's pre-activation: the scattered sum plus the bias at the column. -/
theorem v45_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (n : Fin 50000) (k : Fin 128) :
    val_main_v45 (F := Ideal) x0 x1 x2 x3 (ix2 n k) = val_main_v42 (F := Ideal) x0 x1 x2 (ix2 n k) + x3 (ix1 k) := by
  rw [val_main_v45_apply, val_main_v44_apply, val_main_v43_apply]
  have e : idx_main_v43 (idx_main_v44 (ix2 n k)) = ix1 k :=
    funext fun a => Fin.ext (by match a with | ⟨0, _⟩ => rfl)
  rw [e]
  rfl

/-- The cap below at zero. -/
theorem v46_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (n : Fin 50000) (k : Fin 128) :
    val_main_v46 (F := Ideal) x0 x1 x2 x3 (ix2 n k) = max (val_main_v45 (F := Ideal) x0 x1 x2 x3 (ix2 n k)) Cert.Gcn.zero32 := by
  rw [val_main_v46_apply, val_main_call0_v0_apply, val_main_call0_cst_apply]
  rfl

/-- The second product: entry (n, j) is the sum over k of the capped activation (n, k) times x4 (k, j). -/
theorem v47_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (n : Fin 50000) (j : Fin 64) :
    val_main_v47 (F := Ideal) x0 x1 x2 x3 x4 (ix2 n j) = ∑ k : Fin 128, val_main_v46 (F := Ideal) x0 x1 x2 x3 (ix2 n k) * x4 (ix2 k j) := by
  rw [val_main_v47_apply]
  refine Finset.sum_congr rfl fun k _ => ?_
  have el : lidx_main_v47 (ix2 n j) k = ix2 n k :=
    funext fun a => Fin.ext (by match a with | ⟨0, _⟩ => rfl | ⟨1, _⟩ => rfl)
  have er : ridx_main_v47 (ix2 n j) k = ix2 k j :=
    funext fun a => Fin.ext (by match a with | ⟨0, _⟩ => rfl | ⟨1, _⟩ => rfl)
  rw [el, er]

/-- The second layer's pre-activation: the scattered sum plus the bias at the column. -/
theorem v63_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (n : Fin 50000) (q : Fin 64) :
    val_main_v63 (F := Ideal) x0 x1 x2 x3 x4 x5 (ix2 n q) = val_main_v60 (F := Ideal) x0 x1 x2 x3 x4 (ix2 n q) + x5 (ix1 q) := by
  rw [val_main_v63_apply, val_main_v62_apply, val_main_v61_apply]
  have e : idx_main_v61 (idx_main_v62 (ix2 n q)) = ix1 q :=
    funext fun a => Fin.ext (by match a with | ⟨0, _⟩ => rfl)
  rw [e]
  rfl

/-- A gathered row of the first product, scaled by the edge's weight. -/
theorem v39_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (e : Fin 850000) (j : Fin 128) :
    val_main_v39 (F := Ideal) x0 x1 x2 (ix2 e j) = val_main_v36 (F := Ideal) x0 x1 x2 (ix2 e j) * val_main_v28 (F := Ideal) x1 (ix1 e) := by
  rw [val_main_v39_apply, val_main_v38_apply, val_main_v37_apply]
  have h : idx_main_v37 (idx_main_v38 (ix2 e j)) = ix1 e :=
    funext fun a => Fin.ext (by match a with | ⟨0, _⟩ => rfl)
  rw [h]
  rfl

/-- A gathered row of the second product, scaled by the edge's weight. -/
theorem v57_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (e : Fin 850000) (j : Fin 64) :
    val_main_v57 (F := Ideal) x0 x1 x2 x3 x4 (ix2 e j) = val_main_v54 (F := Ideal) x0 x1 x2 x3 x4 (ix2 e j) * val_main_v28 (F := Ideal) x1 (ix1 e) := by
  rw [val_main_v57_apply, val_main_v56_apply, val_main_v55_apply]
  have h : idx_main_v55 (idx_main_v56 (ix2 e j)) = ix1 e :=
    funext fun a => Fin.ext (by match a with | ⟨0, _⟩ => rfl)
  rw [h]
  rfl

/-- An edge's weight: the product of the two gathered normalising factors. -/
theorem v28_apply (x1 : (⟨S2x800000, .i32⟩ : BufTy).Contents (Elt Ideal)) (e : Fin 850000) :
    val_main_v28 (F := Ideal) x1 (ix1 e) = val_main_v20 (F := Ideal) x1 (ix1 e) * val_main_v27 (F := Ideal) x1 (ix1 e) := by
  rw [val_main_v28_apply]
  rfl

/-- The array the first scatter starts from is zero everywhere. -/
theorem v40_apply (i : S50000x128.Idx) : val_main_v40 (F := Ideal) i = Cert.Gcn.zero32 := by
  rw [val_main_v40_apply, val_main_cst_7_apply]
  rfl

/-- The array the second scatter starts from is zero everywhere. -/
theorem v58_apply (i : S50000x64.Idx) : val_main_v58 (F := Ideal) i = Cert.Gcn.zero32 := by
  rw [val_main_v58_apply, val_main_cst_10_apply]
  rfl

/-- A row index of a two-axis shape with a column coordinate inserted on axis 1 is the pair. -/
theorem lift_row {m p : Nat} (h : (⟨2, ![m, p]⟩ : Shape).Reduces [1] ⟨1, ![m]⟩) (n : Fin m) (k : Fin p) :
    h.lift (ix1 n) k = ix2 n k := by
  funext a
  apply Fin.ext
  show h.liftVal (ix1 n) k.val a = (ix2 n k a).val
  unfold Shape.Reduces.liftVal
  match a with
  | ⟨0, _⟩ => rfl
  | ⟨1, _⟩ => rfl

/-- A maximum-reduce of a two-axis array over its columns, at row n, is the fold of max over the row from the
    initial value. -/
theorem reduce_max_row {m p : Nat} (y : FVec Ideal ⟨2, ![m, p]⟩ .f32) (init : FVec Ideal ⟨0, ![]⟩ .f32)
    (h' : (⟨2, ![m, p]⟩ : Shape).ReducesTo [1] ⟨1, ![m]⟩) (h : (⟨2, ![m, p]⟩ : Shape).Reduces [1] ⟨1, ![m]⟩)
    (hu : 0 < (⟨0, ![]⟩ : Shape).numel) (n : Fin m) :
    Host.reduce (FloatOps.maximumf (F := Ideal) (φ := .f32)) y init h' hu (ix1 n)
      = (Finset.univ : Finset (Fin p)).fold max (init (Shape.Idx.first hu)) (fun q => y (ix2 n q)) := by
  rw [Host.reduce_eq_fold_single _ y init h' h hu (ix1 n)]
  exact Finset.fold_congr fun k _ => congrArg y (lift_row h n k)

/-- The row maximum taken from minus infinity, at row n, is the row maximum of the row of pre-activations. -/
theorem v64_row (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (n : Fin 50000) :
    val_main_v64 (F := Ideal) x0 x1 x2 x3 x4 x5 (ix1 n)
      = Cert.Gcn.rowMax (fun q : Fin 64 => val_main_v63 (F := Ideal) x0 x1 x2 x3 x4 x5 (ix2 n q)) := by
  unfold val_main_v64
  generalize val_main_v63 (F := Ideal) x0 x1 x2 x3 x4 x5 = y
  exact reduce_max_row (m := 50000) (p := 64) y (val_main_cst_11 (F := Ideal)) Gen.reducesTo_S50000x64_S50000_d1
    (by decide) Gen.h_S_ n

/-- Taking the maximum with minus infinity once more changes nothing. -/
theorem v66_row (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (n : Fin 50000) :
    val_main_v66 (F := Ideal) x0 x1 x2 x3 x4 x5 (ix1 n)
      = Cert.Gcn.rowMax (fun q : Fin 64 => val_main_v63 (F := Ideal) x0 x1 x2 x3 x4 x5 (ix2 n q)) := by
  rw [val_main_v66_apply, v64_row, val_main_v65_apply, val_main_cst_12_apply, Ideal.maximumf_def, Ideal.ofBits_def]
  exact max_eq_right ((Finset.le_fold_max _).2 (Or.inl le_rfl))

/-- The exponential of an entry's distance to its row's maximum. -/
theorem v70_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (n : Fin 50000) (q : Fin 64) :
    val_main_v70 (F := Ideal) x0 x1 x2 x3 x4 x5 (ix2 n q)
      = Ideal.exp (val_main_v63 (F := Ideal) x0 x1 x2 x3 x4 x5 (ix2 n q)
          - Cert.Gcn.rowMax (fun q : Fin 64 => val_main_v63 (F := Ideal) x0 x1 x2 x3 x4 x5 (ix2 n q))) := by
  rw [val_main_v70_apply, val_main_v69_apply, val_main_v68_apply, val_main_v67_apply]
  have h : idx_main_v67 (idx_main_v68 (ix2 n q)) = ix1 n :=
    funext fun a => Fin.ext (by match a with | ⟨0, _⟩ => rfl)
  rw [h, v66_row, Ideal.hostUnary_exp_def, Ideal.subf_def]

/-- The row sum of those exponentials, taken from zero. -/
theorem v71_row (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (n : Fin 50000) :
    val_main_v71 (F := Ideal) x0 x1 x2 x3 x4 x5 (ix1 n)
      = ∑ k : Fin 64, Ideal.exp (val_main_v63 (F := Ideal) x0 x1 x2 x3 x4 x5 (ix2 n k)
          - Cert.Gcn.rowMax (fun q : Fin 64 => val_main_v63 (F := Ideal) x0 x1 x2 x3 x4 x5 (ix2 n q))) := by
  rw [val_main_v71_apply, val_main_cst_13_apply, Ideal.ofBits_def, Ideal.ofBits_zero_f32, zero_add]
  refine Finset.sum_congr rfl fun k _ => ?_
  have h : idx_main_v71 (ix1 n) k = ix2 n k :=
    funext fun a => Fin.ext (by match a with | ⟨0, _⟩ => rfl | ⟨1, _⟩ => rfl)
  rw [h, v70_apply]

/-- The closing stages are the softmax of the row of pre-activations. -/
theorem tail_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (n : Fin 50000) (j : Fin 64) :
    val_main_v74 (F := Ideal) x0 x1 x2 x3 x4 x5 (ix2 n j)
      = Cert.Gcn.softmaxRow (fun q => val_main_v63 (F := Ideal) x0 x1 x2 x3 x4 x5 (ix2 n q)) j := by
  rw [val_main_v74_apply, val_main_v73_apply, val_main_v72_apply]
  have h : idx_main_v72 (idx_main_v73 (ix2 n j)) = ix1 n :=
    funext fun a => Fin.ext (by match a with | ⟨0, _⟩ => rfl)
  rw [h, v71_row, v70_apply, Ideal.hostDivf_def]
  rfl

end Cert.ReferenceIdeal.RefRead

end
-- ==== Proof.LibScatterGather.lean ====
/-
  A gather of ROWS and a scatter of ROWS, read at an index.

  `stablehlo.gather` of a rank-2 operand [H, W] at start indices [N, 1] with the row axis collapsed and named by the
  start index and the column axis kept whole (offset_dims [1], collapsed_slice_dims [0], start_index_map [0],
  index_vector_dim 1, slice sizes [1, W]) gives [N, W]: result element (e, q) is the operand at (row, q), the row being
  start index e read as a signed integer and clamped into the axis.

  `stablehlo.scatter` of updates [N, W] into an operand [H, W] at scatter indices [N, 1] (update_window_dims [1],
  inserted_window_dims [0], scatter_dims_to_operand_dims [0], index_vector_dim 1): update element (e, q) lands at
  (row, q), the row being scatter index e read as a signed integer and NOT clamped; an update whose row is outside the
  operand is dropped. With an addition as the body, at the extended reals, element (r, c) of the result is the
  operand's plus the sum over the e whose scatter index is r of update (e, c).

  Generic in the extents; the records' conditions `wf` are decided on literal shapes.
-/
import Idealize.ShloMosaic.PureOps
import Idealize.ShloMosaic.Lib.ValueIdx

noncomputable section

open scoped BigOperators

namespace Cert.LibScatterGather

open Idealize.ShloMosaic Idealize.ShloMosaic.ValueIdx

variable {α : Type}

/-! ## The row gather -/

/-- The dimension numbers of a row gather from `[H, W]` at start indices `[N, 1]` into `[N, W]`. -/
abbrev rowGatherDims (H W N : Nat)
    (wf : GatherDims.WF ⟨2, ![H, W]⟩ ⟨2, ![N, 1]⟩ ⟨2, ![N, W]⟩ [1] [0] [] [0] [] 1 ![1, W]) :
    GatherDims ⟨2, ![H, W]⟩ ⟨2, ![N, 1]⟩ ⟨2, ![N, W]⟩ where
  offsetDims := [1]
  collapsedSliceDims := [0]
  operandBatchingDims := []
  startIndicesBatchingDims := []
  startIndexMap := [0]
  indexVectorDim := 1
  sliceSizes := ![1, W]
  wf := wf

section Gather
variable {H W N w : Nat}
  (wf : GatherDims.WF ⟨2, ![H, W]⟩ ⟨2, ![N, 1]⟩ ⟨2, ![N, W]⟩ [1] [0] [] [0] [] 1 ![1, W])
  (idx : IVec ⟨2, ![N, 1]⟩ w) (e : Fin N) (q : Fin W)

/-- The operand row a result element reads: its start index, signed, clamped. -/
theorem gather_row : ((rowGatherDims H W N wf).operandIdx (ix2 e q) idx (0 : Fin 2)).val
    = min (idx (ix2 e (0 : Fin 1))).toInt.toNat (H - 1) := by
  show (rowGatherDims H W N wf).start (ix2 e q) idx 0 + (rowGatherDims H W N wf).batchCoord (ix2 e q) 0
      + (rowGatherDims H W N wf).offCoord (ix2 e q) 0 = _
  rw [GatherDims.batchCoord_eq_zero _ _ _ List.not_mem_nil,
    GatherDims.offCoord_eq_zero _ _ _ (fun h => ((GatherDims.mem_sKept _ _).mp h).1 List.mem_cons_self)]
  simp only [Nat.add_zero]
  unfold GatherDims.start
  rw [dif_pos (show (0 : Fin 2) ∈ (rowGatherDims H W N wf).startIndexMap from List.mem_cons_self)]
  have hsi : (rowGatherDims H W N wf).siIdx (ix2 e q) ⟨List.idxOf (0 : Fin 2) (rowGatherDims H W N wf).startIndexMap,
      List.idxOf_lt_length_iff.2 List.mem_cons_self⟩ = ix2 e (0 : Fin 1) := by
    funext b; refine Fin.ext ?_
    match b with
    | ⟨0, _⟩ => rfl
    | ⟨1, _⟩ => rfl
  rw [hsi]
  rfl

/-- On the kept column axis a result element reads its own column. -/
theorem gather_col : ((rowGatherDims H W N wf).operandIdx (ix2 e q) idx (1 : Fin 2)).val = q.val := by
  show (rowGatherDims H W N wf).start (ix2 e q) idx 1 + (rowGatherDims H W N wf).batchCoord (ix2 e q) 1
      + (rowGatherDims H W N wf).offCoord (ix2 e q) 1 = _
  rw [GatherDims.batchCoord_eq_zero _ _ _ List.not_mem_nil]
  have hnot : (1 : Fin 2) ∉ (rowGatherDims H W N wf).startIndexMap :=
    (by decide : (1 : Fin 2) ∉ ([0] : List (Fin 2)))
  have hk : (1 : Fin 2) ∈ (rowGatherDims H W N wf).sKept :=
    (GatherDims.mem_sKept _ _).mpr ⟨(by decide : (1 : Fin 2) ∉ ([0] : List (Fin 2))), List.not_mem_nil⟩
  unfold GatherDims.start GatherDims.offCoord
  rw [dif_neg hnot, dif_pos hk]
  simp only [Nat.add_zero, Nat.zero_add]
  rfl

/-- THE ROW GATHER READ AT `(e, q)`: the operand at (row, q), the row being start index `e` read signed and clamped
    into the axis. -/
theorem gather_rows_apply (hH : 0 < H) (x : (⟨2, ![H, W]⟩ : Shape).Idx → α) :
    Host.gather (rowGatherDims H W N wf) x idx (ix2 e q)
      = x (ix2 ⟨min (idx (ix2 e (0 : Fin 1))).toInt.toNat (H - 1), by omega⟩ q) := by
  unfold Host.gather
  refine congrArg x (funext fun a => Fin.ext ?_)
  match a with
  | ⟨0, _⟩ => exact gather_row wf idx e q
  | ⟨1, _⟩ => exact gather_col wf idx e q

end Gather

/-! ## The row scatter -/

/-- The dimension numbers of a row scatter of updates `[N, W]` into `[H, W]` at scatter indices `[N, 1]`. -/
abbrev rowScatterDims (H W N : Nat)
    (wf : ScatterDims.WF ⟨2, ![H, W]⟩ ⟨2, ![N, 1]⟩ ⟨2, ![N, W]⟩ [1] [0] [0] 1) :
    ScatterDims ⟨2, ![H, W]⟩ ⟨2, ![N, 1]⟩ ⟨2, ![N, W]⟩ where
  updateWindowDims := [1]
  insertedWindowDims := [0]
  scatterDimsToOperandDims := [0]
  indexVectorDim := 1
  wf := wf

section Scatter
variable {H W N w : Nat}
  (wf : ScatterDims.WF ⟨2, ![H, W]⟩ ⟨2, ![N, 1]⟩ ⟨2, ![N, W]⟩ [1] [0] [0] 1)
  (idx : IVec ⟨2, ![N, 1]⟩ w) (e : Fin N) (q : Fin W)

/-- The window's start on the row axis: scatter index `e`, read signed. -/
theorem scatter_start0 : (rowScatterDims H W N wf).start (ix2 e q) idx (0 : Fin 2) = (idx (ix2 e (0 : Fin 1))).toInt := by
  unfold ScatterDims.start
  rw [dif_pos (show (0 : Fin 2) ∈ (rowScatterDims H W N wf).scatterDimsToOperandDims from List.mem_cons_self)]
  have hsi : (rowScatterDims H W N wf).siIdx (ix2 e q) ⟨List.idxOf (0 : Fin 2) (rowScatterDims H W N wf).scatterDimsToOperandDims,
      List.idxOf_lt_length_iff.2 List.mem_cons_self⟩ = ix2 e (0 : Fin 1) := by
    funext b; refine Fin.ext ?_
    match b with
    | ⟨0, _⟩ => rfl
    | ⟨1, _⟩ => rfl
  rw [hsi]

/-- The window's start on the column axis is 0: the map does not name it. -/
theorem scatter_start1 : (rowScatterDims H W N wf).start (ix2 e q) idx (1 : Fin 2) = 0 := by
  unfold ScatterDims.start
  rw [dif_neg (by decide : (1 : Fin 2) ∉ ([0] : List (Fin 2)))]

/-- The window coordinate on the row axis is 0: the axis is inserted. -/
theorem scatter_window0 : (rowScatterDims H W N wf).window (ix2 e q) (0 : Fin 2) = 0 := by
  unfold ScatterDims.window
  rw [dif_neg (by simp [Shape.kept, List.mem_filter, List.mem_finRange] : (0 : Fin 2) ∉ (⟨2, ![H, W]⟩ : Shape).kept ([0] : List (Fin 2)))]

/-- The window coordinate on the column axis is the update's column. -/
theorem scatter_window1 : (rowScatterDims H W N wf).window (ix2 e q) (1 : Fin 2) = q.val := by
  unfold ScatterDims.window
  rw [dif_pos (by simp [Shape.kept, List.mem_filter, List.mem_finRange] : (1 : Fin 2) ∈ (⟨2, ![H, W]⟩ : Shape).kept ([0] : List (Fin 2)))]
  rfl

/-- THE ROW SCATTER'S LANDING INDEX: update `(e, q)` lands at `(r, c)` exactly when scatter index `e`, read signed,
    is `r`, and `q = c`. -/
theorem scatter_rows_resultIdx_eq (r : Fin H) (c : Fin W) :
    (rowScatterDims H W N wf).resultIdx? (ix2 e q) idx = some (ix2 r c)
      ↔ (idx (ix2 e (0 : Fin 1))).toInt = (r.val : Int) ∧ q = c := by
  have h0 := scatter_start0 wf idx e q
  have h1 := scatter_start1 wf idx e q
  have w0 := scatter_window0 wf e q
  have w1 := scatter_window1 wf e q
  unfold ScatterDims.resultIdx?
  constructor
  · intro h
    split at h
    · rename_i hall
      have heq := Option.some.inj h
      have e0 := congrArg (fun f => (f (0 : Fin 2)).val) heq
      have e1 := congrArg (fun f => (f (1 : Fin 2)).val) heq
      simp only at e0 e1
      have hb0 := (hall 0).1
      rw [h0, w0] at e0 hb0
      rw [h1, w1] at e1
      refine ⟨?_, Fin.ext ?_⟩
      · have : ((idx (ix2 e (0 : Fin 1))).toInt + ((0 : Nat) : Int)).toNat = r.val := e0
        omega
      · have : ((0 : Int) + (q.val : Int)).toNat = c.val := e1
        omega
    · exact absurd h (by simp)
  · rintro ⟨hr, rfl⟩
    have hall : ∀ a : Fin 2, 0 ≤ (rowScatterDims H W N wf).start (ix2 e q) idx a + ((rowScatterDims H W N wf).window (ix2 e q) a : Int)
        ∧ (rowScatterDims H W N wf).start (ix2 e q) idx a + ((rowScatterDims H W N wf).window (ix2 e q) a : Int)
          < ((⟨2, ![H, W]⟩ : Shape).size a : Int) := by
      intro a
      match a with
      | ⟨0, _⟩ =>
        show 0 ≤ (rowScatterDims H W N wf).start (ix2 e q) idx 0 + (((rowScatterDims H W N wf).window (ix2 e q) 0 : Nat) : Int)
          ∧ (rowScatterDims H W N wf).start (ix2 e q) idx 0 + (((rowScatterDims H W N wf).window (ix2 e q) 0 : Nat) : Int) < (H : Int)
        rw [h0, w0, hr]; have := r.isLt; omega
      | ⟨1, _⟩ =>
        show 0 ≤ (rowScatterDims H W N wf).start (ix2 e q) idx 1 + (((rowScatterDims H W N wf).window (ix2 e q) 1 : Nat) : Int)
          ∧ (rowScatterDims H W N wf).start (ix2 e q) idx 1 + (((rowScatterDims H W N wf).window (ix2 e q) 1 : Nat) : Int) < (W : Int)
        rw [h1, w1]; have := q.isLt; omega
    rw [dif_pos hall]
    refine congrArg some (funext fun a => Fin.ext ?_)
    match a with
    | ⟨0, _⟩ =>
      show ((rowScatterDims H W N wf).start (ix2 e q) idx 0 + (((rowScatterDims H W N wf).window (ix2 e q) 0 : Nat) : Int)).toNat = r.val
      rw [h0, w0, hr]; omega
    | ⟨1, _⟩ =>
      show ((rowScatterDims H W N wf).start (ix2 e q) idx 1 + (((rowScatterDims H W N wf).window (ix2 e q) 1 : Nat) : Int)).toNat = q.val
      rw [h1, w1]; omega

end Scatter

/-- THE ACCUMULATING ROW SCATTER READ AT `(r, c)`, at the extended reals: the operand's element plus the sum, over
    the update rows `e` whose scatter index read signed is `r`, of update `(e, c)`. -/
theorem scatterAdd_rows_apply {H W N w : Nat}
    (wf : ScatterDims.WF ⟨2, ![H, W]⟩ ⟨2, ![N, 1]⟩ ⟨2, ![N, W]⟩ [1] [0] [0] 1)
    (x : (⟨2, ![H, W]⟩ : Shape).Idx → EReal) (idx : IVec ⟨2, ![N, 1]⟩ w)
    (upd : (⟨2, ![N, W]⟩ : Shape).Idx → EReal) (r : Fin H) (c : Fin W) :
    Ideal.hostScatterAdd (rowScatterDims H W N wf) x idx upd (ix2 r c)
      = x (ix2 r c) + ∑ e ∈ Finset.univ.filter (fun e : Fin N => (idx (ix2 e (0 : Fin 1))).toInt = (r.val : Int)),
          upd (ix2 e c) := by
  unfold Ideal.hostScatterAdd
  refine congrArg (x (ix2 r c) + ·) ?_
  rw [Finset.sum_filter, sum_idx2, Finset.sum_filter]
  refine Finset.sum_congr rfl fun e _ => ?_
  by_cases he : (idx (ix2 e (0 : Fin 1))).toInt = (r.val : Int)
  · rw [if_pos he]
    rw [Finset.sum_eq_single c]
    · rw [if_pos ((scatter_rows_resultIdx_eq wf idx e c r c).mpr ⟨he, rfl⟩)]
    · intro q _ hq
      rw [if_neg (fun h => hq ((scatter_rows_resultIdx_eq wf idx e q r c).mp h).2)]
    · intro h; exact absurd (Finset.mem_univ c) h
  · rw [if_neg he]
    refine Finset.sum_eq_zero fun q _ => ?_
    rw [if_neg (fun h => he ((scatter_rows_resultIdx_eq wf idx e q r c).mp h).1)]

end Cert.LibScatterGather

end
-- ==== Proof.LibGatherVec.lean ====
/-
  A gather of single ELEMENTS of a vector, read at an index.

  `stablehlo.gather` of a rank-1 operand [H] at start indices [N, 1] with the one axis collapsed and named by the
  start index (offset_dims [], collapsed_slice_dims [0], start_index_map [0], index_vector_dim 1, slice sizes [1])
  gives [N]: result element e is the operand at the position that start index e, read as a signed integer and
  clamped into the axis, names.

  Generic in the extents; the record's conditions `wf` are decided on literal shapes.
-/
import Idealize.ShloMosaic.PureOps
import Idealize.ShloMosaic.Lib.ValueIdx

noncomputable section

namespace Cert.LibGatherVec

open Idealize.ShloMosaic Idealize.ShloMosaic.ValueIdx

variable {α : Type}

/-- The dimension numbers of an element gather from `[H]` at start indices `[N, 1]` into `[N]`. -/
abbrev vecGatherDims (H N : Nat)
    (wf : GatherDims.WF ⟨1, ![H]⟩ ⟨2, ![N, 1]⟩ ⟨1, ![N]⟩ [] [0] [] [0] [] 1 ![1]) :
    GatherDims ⟨1, ![H]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

section Gather
variable {H N w : Nat}
  (wf : GatherDims.WF ⟨1, ![H]⟩ ⟨2, ![N, 1]⟩ ⟨1, ![N]⟩ [] [0] [] [0] [] 1 ![1])
  (idx : IVec ⟨2, ![N, 1]⟩ w) (e : Fin N)

/-- The operand position a result element reads: its start index, signed, clamped. -/
theorem gather_pos : ((vecGatherDims H N wf).operandIdx (ix1 e) idx (0 : Fin 1)).val
    = min (idx (ix2 e (0 : Fin 1))).toInt.toNat (H - 1) := by
  show (vecGatherDims H N wf).start (ix1 e) idx 0 + (vecGatherDims H N wf).batchCoord (ix1 e) 0
      + (vecGatherDims H N wf).offCoord (ix1 e) 0 = _
  rw [GatherDims.batchCoord_eq_zero _ _ _ List.not_mem_nil,
    GatherDims.offCoord_eq_zero _ _ _ (fun h => ((GatherDims.mem_sKept _ _).mp h).1 List.mem_cons_self)]
  simp only [Nat.add_zero]
  unfold GatherDims.start
  rw [dif_pos (show (0 : Fin 1) ∈ (vecGatherDims H N wf).startIndexMap from List.mem_cons_self)]
  have hsi : (vecGatherDims H N wf).siIdx (ix1 e) ⟨List.idxOf (0 : Fin 1) (vecGatherDims H N wf).startIndexMap,
      List.idxOf_lt_length_iff.2 List.mem_cons_self⟩ = ix2 e (0 : Fin 1) := by
    funext b; refine Fin.ext ?_
    match b with
    | ⟨0, _⟩ => rfl
    | ⟨1, _⟩ => rfl
  rw [hsi]
  rfl

/-- THE ELEMENT GATHER READ AT `e`: the operand at the position start index `e`, read signed and clamped into the
    axis, names. -/
theorem gather_vec_apply (hH : 0 < H) (x : (⟨1, ![H]⟩ : Shape).Idx → α) :
    Host.gather (vecGatherDims H N wf) x idx (ix1 e)
      = x (ix1 ⟨min (idx (ix2 e (0 : Fin 1))).toInt.toNat (H - 1), by omega⟩) := by
  unfold Host.gather
  refine congrArg x (funext fun a => Fin.ext ?_)
  match a with
  | ⟨0, _⟩ => exact gather_pos wf idx e

end Gather

end Cert.LibGatherVec

end
-- ==== Proof.RefGather.lean ====
/-
  The reference program's gathers and accumulating scatters, read at an index, and the relations between its
  index arrays.

  The program gathers rows of a [50000, W] array (and elements of a [50000] vector) at start indices [850000, 1]:
  result row e is the operand's row named by start index e, read as a signed integer and clamped into [0, 49999].
  It scatters rows [850000, W] into a [50000, W] array of zeros with addition: element (n, k) of the result is the
  operand's plus the sum, over the update rows e whose scatter index read signed is exactly n, of update (e, k);
  an update whose index is outside the array is dropped, not clamped.

  The start indices are built from the source row of the edge list as select(src < 0, src + 50000, src), three
  times over; the three arrays are one array. The scatter indices are the destination row, broadcast; they too
  are one array. A destination index that names a node exactly also names it once normalised and clamped.
-/
import proofs.«131309_j50208167690258_2_alg».proof.Proof.Gen.ReferenceIdeal.Read
import proofs.«131309_j50208167690258_2_alg».proof.Proof.Spec
import proofs.«131309_j50208167690258_2_alg».proof.Proof.LibScatterGather
import proofs.«131309_j50208167690258_2_alg».proof.Proof.LibGatherVec

noncomputable section

open scoped BigOperators

namespace Cert.ReferenceIdeal.GS

open Cert.ReferenceIdeal Cert.ReferenceIdeal.Read Cert.ReferenceIdeal.Gen Idealize.ShloMosaic Idealize.ShloMosaic.ValueIdx

/-- The row a start index names: read signed, clamped into [0, 49999]. -/
def rowOf (idx : S850000x1.Idx → BitVec 32) (e : Fin 850000) : Fin 50000 :=
  ⟨min (idx (ix2 e (0 : Fin 1))).toInt.toNat (50000 - 1), by omega⟩

/-! ## The program's dimension records are the row / element records of the general lemmas -/

theorem gather128_eq : gather_S50000x128_S850000x1_S850000x128_1_0_n_n_0_1_1128
    = Cert.LibScatterGather.rowGatherDims 50000 128 850000
        Facts₀.gather_S50000x128_S850000x1_S850000x128_1_0_n_n_0_1_1128_wf := rfl

theorem scatter128_eq : scatter_S50000x128_S850000x1_S850000x128_1_0_0_1
    = Cert.LibScatterGather.rowScatterDims 50000 128 850000
        Facts₀.scatter_S50000x128_S850000x1_S850000x128_1_0_0_1_wf := rfl

/-- At the extended reals the host's accumulating scatter is the exact sum. -/
theorem scatterAdd_ideal {s si su : Shape} {w : Nat} (d : ScatterDims s si su) (x : FVec Ideal s .f32)
    (idx : IVec si w) (upd : FVec Ideal su .f32) :
    Host.scatterAdd (F := Ideal) d x idx upd = Ideal.hostScatterAdd d x idx upd := rfl

/-! ## The row gathers and the row scatter-adds -/

/-- Row e of the first gather is the row of the first product that start index e names. -/
theorem v36_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (e : Fin 850000) (j : Fin 128) :
    val_main_v36 (F := Ideal) x0 x1 x2 (ix2 e j)
      = val_main_v29 (F := Ideal) x0 x2 (ix2 (rowOf (val_main_v35 (F := Ideal) x1) e) j) := by
  unfold val_main_v36
  rewrite [gather128_eq]
  exact Cert.LibScatterGather.gather_rows_apply (H := 50000) (W := 128) (N := 850000)
    Facts₀.gather_S50000x128_S850000x1_S850000x128_1_0_n_n_0_1_1128_wf (val_main_v35 (F := Ideal) x1) e j
    (Nat.succ_pos _) (val_main_v29 (F := Ideal) x0 x2)

/-- Element (n, k) of the first scatter-add is the zero operand's plus the sum of the update rows aimed at n. -/
theorem v42_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (n : Fin 50000) (k : Fin 128) :
    val_main_v42 (F := Ideal) x0 x1 x2 (ix2 n k)
      = val_main_v40 (F := Ideal) (ix2 n k)
        + ∑ e ∈ Finset.univ.filter (fun e : Fin 850000 =>
            (val_main_v41 (F := Ideal) x1 (ix2 e (0 : Fin 1))).toInt = (n.val : Int)),
          val_main_v39 (F := Ideal) x0 x1 x2 (ix2 e k) := by
  unfold val_main_v42
  rewrite [scatter128_eq, scatterAdd_ideal]
  exact Cert.LibScatterGather.scatterAdd_rows_apply (H := 50000) (W := 128) (N := 850000)
    Facts₀.scatter_S50000x128_S850000x1_S850000x128_1_0_0_1_wf (val_main_v40 (F := Ideal))
    (val_main_v41 (F := Ideal) x1) (val_main_v39 (F := Ideal) x0 x1 x2) n k

theorem gather64_eq : gather_S50000x64_S850000x1_S850000x64_1_0_n_n_0_1_164
    = Cert.LibScatterGather.rowGatherDims 50000 64 850000
        Facts₀.gather_S50000x64_S850000x1_S850000x64_1_0_n_n_0_1_164_wf := rfl

theorem scatter64_eq : scatter_S50000x64_S850000x1_S850000x64_1_0_0_1
    = Cert.LibScatterGather.rowScatterDims 50000 64 850000
        Facts₀.scatter_S50000x64_S850000x1_S850000x64_1_0_0_1_wf := rfl

theorem gatherVec_eq : gather_S50000_S850000x1_S850000_n_0_n_n_0_1_1
    = Cert.LibGatherVec.vecGatherDims 50000 850000
        Facts₀.gather_S50000_S850000x1_S850000_n_0_n_n_0_1_1_wf := rfl

/-- Row e of the second gather is the row of the second product that start index e names. -/
theorem v54_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (e : Fin 850000) (j : Fin 64) :
    val_main_v54 (F := Ideal) x0 x1 x2 x3 x4 (ix2 e j)
      = val_main_v47 (F := Ideal) x0 x1 x2 x3 x4 (ix2 (rowOf (val_main_v53 (F := Ideal) x1) e) j) := by
  unfold val_main_v54
  rewrite [gather64_eq]
  exact Cert.LibScatterGather.gather_rows_apply (H := 50000) (W := 64) (N := 850000)
    Facts₀.gather_S50000x64_S850000x1_S850000x64_1_0_n_n_0_1_164_wf (val_main_v53 (F := Ideal) x1) e j
    (Nat.succ_pos _) (val_main_v47 (F := Ideal) x0 x1 x2 x3 x4)

/-- Element (n, j) of the second scatter-add is the zero operand's plus the sum of the update rows aimed at n. -/
theorem v60_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (n : Fin 50000) (j : Fin 64) :
    val_main_v60 (F := Ideal) x0 x1 x2 x3 x4 (ix2 n j)
      = val_main_v58 (F := Ideal) (ix2 n j)
        + ∑ e ∈ Finset.univ.filter (fun e : Fin 850000 =>
            (val_main_v59 (F := Ideal) x1 (ix2 e (0 : Fin 1))).toInt = (n.val : Int)),
          val_main_v57 (F := Ideal) x0 x1 x2 x3 x4 (ix2 e j) := by
  unfold val_main_v60
  rewrite [scatter64_eq, scatterAdd_ideal]
  exact Cert.LibScatterGather.scatterAdd_rows_apply (H := 50000) (W := 64) (N := 850000)
    Facts₀.scatter_S50000x64_S850000x1_S850000x64_1_0_0_1_wf (val_main_v58 (F := Ideal))
    (val_main_v59 (F := Ideal) x1) (val_main_v57 (F := Ideal) x0 x1 x2 x3 x4) n j

/-! ## The element gathers of the per-node factor -/

/-- Element e of the first factor gather is the factor of the node that start index e names. -/
theorem v20_apply (x1 : (⟨S2x800000, .i32⟩ : BufTy).Contents (Elt Ideal)) (e : Fin 850000) :
    val_main_v20 (F := Ideal) x1 (ix1 e)
      = val_main_v13 (F := Ideal) x1 (ix1 (rowOf (val_main_v19 (F := Ideal) x1) e)) := by
  unfold val_main_v20
  rewrite [gatherVec_eq]
  exact Cert.LibGatherVec.gather_vec_apply (H := 50000) (N := 850000)
    Facts₀.gather_S50000_S850000x1_S850000_n_0_n_n_0_1_1_wf (val_main_v19 (F := Ideal) x1) e
    (Nat.succ_pos _) (val_main_v13 (F := Ideal) x1)

/-- Element e of the second factor gather is the factor of the node that start index e names. -/
theorem v27_apply (x1 : (⟨S2x800000, .i32⟩ : BufTy).Contents (Elt Ideal)) (e : Fin 850000) :
    val_main_v27 (F := Ideal) x1 (ix1 e)
      = val_main_v13 (F := Ideal) x1 (ix1 (rowOf (val_main_v26 (F := Ideal) x1) e)) := by
  unfold val_main_v27
  rewrite [gatherVec_eq]
  exact Cert.LibGatherVec.gather_vec_apply (H := 50000) (N := 850000)
    Facts₀.gather_S50000_S850000x1_S850000_n_0_n_n_0_1_1_wf (val_main_v26 (F := Ideal) x1) e
    (Nat.succ_pos _) (val_main_v13 (F := Ideal) x1)

/-! ## The index arrays -/

/-- The three start-index arrays built from the source row are one array (the program rebuilds
    select(src < 0, src + 50000, src) three times), and the scatter-index arrays built from the destination row
    are one array. -/
theorem v35_eq (x1 : (⟨S2x800000, .i32⟩ : BufTy).Contents (Elt Ideal)) : val_main_v35 (F := Ideal) x1 = val_main_v19 (F := Ideal) x1 := rfl

theorem v53_eq (x1 : (⟨S2x800000, .i32⟩ : BufTy).Contents (Elt Ideal)) : val_main_v53 (F := Ideal) x1 = val_main_v19 (F := Ideal) x1 := rfl

theorem v59_eq (x1 : (⟨S2x800000, .i32⟩ : BufTy).Contents (Elt Ideal)) : val_main_v59 (F := Ideal) x1 = val_main_v41 (F := Ideal) x1 := rfl

/-- A word whose signed value is not negative is not signed-below zero, so a select on that comparison keeps it. -/
theorem select_slt_zero_of_nonneg (d a : BitVec 32) (hd : 0 ≤ d.toInt) :
    Scalar.select (IntOp.cmpi .slt d 0#32) a d = d := by
  have h0 : (0#32 : BitVec 32).toInt = 0 := by decide
  have hs : d.slt 0#32 = false := by
    unfold BitVec.slt
    rw [h0]
    exact decide_eq_false (by omega)
  have hc : IntOp.cmpi .slt d 0#32 = 0#1 := by
    show BitVec.ofBool (d.slt 0#32) = 0#1
    rw [hs]; rfl
  rw [hc]
  exact select_zero a d

/-- A destination index that names node n exactly (read signed, not clamped) also names n once normalised and
    clamped: it is not negative, so the select keeps it, and it is below 50000, so the clamp keeps it. -/
theorem dst_row (x1 : (⟨S2x800000, .i32⟩ : BufTy).Contents (Elt Ideal)) (e : Fin 850000) (n : Fin 50000)
    (h : (val_main_v41 (F := Ideal) x1 (ix2 e (0 : Fin 1))).toInt = (n.val : Int)) :
    rowOf (val_main_v26 (F := Ideal) x1) e = n := by
  have i41 : idx_main_v41 (ix2 e (0 : Fin 1)) = ix1 e := by
    funext a; match a with | ⟨0, _⟩ => rfl
  have i26 : idx_main_v26 (ix2 e (0 : Fin 1)) = ix1 e := by
    funext a; match a with | ⟨0, _⟩ => rfl
  have h6 : (val_main_v6 (F := Ideal) x1 (ix1 e) : BitVec 32).toInt = (n.val : Int) := by
    have h' := h
    rw [val_main_v41_apply, i41] at h'
    exact h'
  have hv : (val_main_v26 (F := Ideal) x1 (ix2 e (0 : Fin 1)) : BitVec 32)
      = val_main_v6 (F := Ideal) x1 (ix1 e) := by
    rw [val_main_v26_apply, i26, val_main_v25_apply, val_main_v22_apply, val_main_v21_apply, val_main_c_3_apply]
    exact select_slt_zero_of_nonneg _ _ (by rw [h6]; exact Int.natCast_nonneg _)
  refine Fin.ext ?_
  show min (val_main_v26 (F := Ideal) x1 (ix2 e (0 : Fin 1)) : BitVec 32).toInt.toNat (50000 - 1) = n.val
  rw [hv, h6]
  have hn := n.isLt
  omega

end Cert.ReferenceIdeal.GS

end
-- ==== Proof.LibAllReal.lean ====
/-
  Real-valued arrays over the extended reals.

  At the ideal float instance a float is an extended real. An array is REAL when every entry is (the
  coercion of) a real number: no entry is `⊤` or `⊥`. The algebra a value proof uses — distributivity,
  cancellation, the exchange of finite sums — holds for reals and fails at the infinities, so a value proof
  carries this predicate along the program. This file proves that the host operations keep it:

  * pointwise sum, difference, product, maximum, minimum, negation; a selection between two real arrays;
    the splat of a bit pattern that denotes a real (with the patterns of 0, 1, 169343 and the single-precision
    neighbour of 10⁻⁵, which is positive);
  * every re-indexing (broadcasts, reshape, slice, transpose, gather), whose entries are entries of the operand;
  * a finite sum of reals; hence the exact scatter-add, the exact sum-reduction, the exact matrix product;
  * the quotient by an array of nonzero reals and the reciprocal square root of an array of positive reals;
    and `where (d > 0) (rsqrt d) w`, which is real for every real `d`: the reciprocal square root is read
    only where `d` is positive.
-/
import Idealize.ShloMosaic.PureOps
import Idealize.ShloMosaic.PureOps.Ideal
import Idealize.ShloMosaic.PureOps.Ideal.Laws
import Idealize.ShloMosaic.Lib.ReduceAll

noncomputable section

namespace Cert.Lib.AllReal

open Idealize.ShloMosaic

/-! ## The predicates -/

/-- An extended real that is (the coercion of) a real number. -/
def IsReal (x : EReal) : Prop := ∃ r : ℝ, x = (r : EReal)

/-- An array over the extended reals every entry of which is a real number. -/
def AllReal {s : Shape} (v : s.Idx → EReal) : Prop := ∀ i, ∃ r : ℝ, v i = (r : EReal)

/-- An array is real exactly when each entry is. -/
theorem allReal_iff {s : Shape} (v : s.Idx → EReal) : AllReal v ↔ ∀ i, IsReal (v i) := Iff.rfl

/-- The entry of a real array at an index, as a real number. -/
theorem AllReal.isReal {s : Shape} {v : s.Idx → EReal} (h : AllReal v) (i : s.Idx) : IsReal (v i) := h i

/-- A real number is neither infinity. -/
theorem IsReal.ne_top {x : EReal} (h : IsReal x) : x ≠ ⊤ := by
  obtain ⟨r, rfl⟩ := h; exact EReal.coe_ne_top r

/-- A real number is neither infinity. -/
theorem IsReal.ne_bot {x : EReal} (h : IsReal x) : x ≠ ⊥ := by
  obtain ⟨r, rfl⟩ := h; exact EReal.coe_ne_bot r

/-- An extended real that is neither infinity is a real number. -/
theorem isReal_of_ne {x : EReal} (hb : x ≠ ⊥) (ht : x ≠ ⊤) : IsReal x := by
  induction x using EReal.rec with
  | bot => exact absurd rfl hb
  | coe r => exact ⟨r, rfl⟩
  | top => exact absurd rfl ht

/-- An extended real of absolute value below `⊤` is a real number. -/
theorem isReal_of_abs_lt_top {x : EReal} (h : max x (-x) < ⊤) : IsReal x := by
  induction x using EReal.rec with
  | bot => exact absurd h (by simp)
  | coe r => exact ⟨r, rfl⟩
  | top => exact absurd h (by simp)

/-! ## Scalars -/

/-- A coerced real is real. -/
theorem isReal_coe (r : ℝ) : IsReal (r : EReal) := ⟨r, rfl⟩

/-- Zero is real. -/
theorem isReal_zero : IsReal 0 := ⟨0, rfl⟩

/-- One is real. -/
theorem isReal_one : IsReal 1 := ⟨1, rfl⟩

/-- The sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negative of a real is real. -/
theorem IsReal.neg {x : EReal} (hx : IsReal x) : IsReal (-x) := by
  obtain ⟨a, rfl⟩ := hx; exact ⟨-a, (EReal.coe_neg a).symm⟩

/-- The greater of two reals is real: it is one of them. -/
theorem IsReal.max {x y : EReal} (hx : IsReal x) (hy : IsReal y) : IsReal (max x y) := by
  rcases le_total x y with h | h
  · rw [max_eq_right h]; exact hy
  · rw [max_eq_left h]; exact hx

/-- The lesser of two reals is real: it is one of them. -/
theorem IsReal.min {x y : EReal} (hx : IsReal x) (hy : IsReal y) : IsReal (min x y) := by
  rcases le_total x y with h | h
  · rw [min_eq_left h]; exact hx
  · rw [min_eq_right h]; exact hy

/-- A finite sum of reals is real. -/
theorem isReal_sum {ι : Type*} (s : Finset ι) (f : ι → EReal) (h : ∀ k ∈ s, IsReal (f k)) :
    IsReal (∑ k ∈ s, f k) := by
  classical
  induction s using Finset.induction_on with
  | empty => rw [Finset.sum_empty]; exact isReal_zero
  | insert a s ha ih =>
    rw [Finset.sum_insert ha]
    exact (h a (Finset.mem_insert_self a s)).add (ih fun k hk => h k (Finset.mem_insert_of_mem hk))

/-- The exact quotient of a real by a nonzero real is real: the product with the reciprocal. -/
theorem IsReal.div {x : EReal} (hx : IsReal x) {b : ℝ} (hb : b ≠ 0) : IsReal (Ideal.div x (b : EReal)) := by
  rw [Ideal.div_coe hb]; exact hx.mul (isReal_coe _)

/-- The reciprocal square root of a positive real is the real `(√r)⁻¹`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- The reciprocal square root of a positive real is real. -/
theorem isReal_rsqrt {r : ℝ} (hr : 0 < r) : IsReal (Ideal.rsqrt (r : EReal)) :=
  ⟨_, rsqrt_coe_of_pos hr⟩

/-! ## Bit patterns that denote reals -/

/-- The single-precision pattern of `0.0` is the real 0. -/
theorem ofBits_f32_zero : Ideal.ofBits .f32 0x00000000#32 = ((0 : ℝ) : EReal) := by
  simp [Ideal.ofBits, Ideal.ieee]

/-- The single-precision pattern of `1.0` is the real 1. -/
theorem ofBits_f32_one : Ideal.ofBits .f32 0x3F800000#32 = ((1 : ℝ) : EReal) := by
  simp [Ideal.ofBits, Ideal.ieee]
  rw [← EReal.coe_mul]; norm_num

/-- The single-precision pattern of `169343.0` is the real 169343. -/
theorem ofBits_f32_169343 : Ideal.ofBits .f32 0x48255FC0#32 = ((169343 : ℝ) : EReal) := by
  simp [Ideal.ofBits, Ideal.ieee]
  rw [← EReal.coe_mul]; norm_num

/-- The single-precision neighbour of `10⁻⁵` is the real `10995116 · 2⁻⁴⁰`. -/
theorem ofBits_f32_eps : Ideal.ofBits .f32 0x3727C5AC#32 = ((10995116 * (2 ^ 40)⁻¹ : ℝ) : EReal) := by
  simp [Ideal.ofBits, Ideal.ieee]

/-- The single-precision neighbour of `10⁻⁵` is a positive real. -/
theorem ofBits_f32_eps_pos : ∃ r : ℝ, 0 < r ∧ Ideal.ofBits .f32 0x3727C5AC#32 = (r : EReal) :=
  ⟨_, by positivity, ofBits_f32_eps⟩

/-- The real `169343` is not zero. -/
theorem ofBits_f32_169343_ne_zero : ∃ b : ℝ, b ≠ 0 ∧ Ideal.ofBits .f32 0x48255FC0#32 = (b : EReal) :=
  ⟨_, by norm_num, ofBits_f32_169343⟩

/-! ## Pointwise operations -/

section Pointwise
variable {s : Shape} {φ : FTy}

/-- The pointwise sum of two real arrays is real. -/
theorem allReal_addf (x y : FVec Ideal s φ) (hx : AllReal x) (hy : AllReal y) : AllReal (addf x y) :=
  fun i => IsReal.add (hx i) (hy i)

/-- The pointwise difference of two real arrays is real. -/
theorem allReal_subf (x y : FVec Ideal s φ) (hx : AllReal x) (hy : AllReal y) : AllReal (subf x y) :=
  fun i => IsReal.sub (hx i) (hy i)

/-- The pointwise product of two real arrays is real. -/
theorem allReal_mulf (x y : FVec Ideal s φ) (hx : AllReal x) (hy : AllReal y) : AllReal (mulf x y) :=
  fun i => IsReal.mul (hx i) (hy i)

/-- The pointwise maximum of two real arrays is real. -/
theorem allReal_maximumf (x y : FVec Ideal s φ) (hx : AllReal x) (hy : AllReal y) : AllReal (maximumf x y) :=
  fun i => IsReal.max (hx i) (hy i)

/-- The pointwise minimum of two real arrays is real. -/
theorem allReal_minimumf (x y : FVec Ideal s φ) (hx : AllReal x) (hy : AllReal y) : AllReal (minimumf x y) :=
  fun i => IsReal.min (hx i) (hy i)

/-- The pointwise negative of a real array is real. -/
theorem allReal_negf (x : FVec Ideal s φ) (hx : AllReal x) : AllReal (negf x) :=
  fun i => IsReal.neg (hx i)

/-- A selection between two arrays is real when each branch is real where it is taken. -/
theorem allReal_select_of (c : IVec s 1) (a b : s.Idx → EReal) (ha : ∀ i, c i = 1 → IsReal (a i))
    (hb : ∀ i, c i ≠ 1 → IsReal (b i)) : AllReal (select c a b) := by
  intro i
  show IsReal (if c i = 1 then a i else b i)
  split
  · exact ha i ‹_›
  · exact hb i ‹_›

/-- A selection between two real arrays is real. -/
theorem allReal_select (c : IVec s 1) (a b : s.Idx → EReal) (ha : AllReal a) (hb : AllReal b) :
    AllReal (select c a b) :=
  allReal_select_of c a b (fun i _ => ha i) (fun i _ => hb i)

/-- The splat of a bit pattern that denotes a real is a real array. -/
theorem allReal_constant (bits : BitVec φ.bits) (h : IsReal (Ideal.ofBits φ bits)) :
    AllReal (constant (F := Ideal) s φ bits) :=
  fun _ => h

/-- The splat of `0.0` is a real array. -/
theorem allReal_constant_zero : AllReal (constant (F := Ideal) s .f32 0x00000000#32) :=
  allReal_constant _ ⟨_, ofBits_f32_zero⟩

/-- The splat of `1.0` is a real array. -/
theorem allReal_constant_one : AllReal (constant (F := Ideal) s .f32 0x3F800000#32) :=
  allReal_constant _ ⟨_, ofBits_f32_one⟩

/-- The splat of `169343.0` is a real array. -/
theorem allReal_constant_169343 : AllReal (constant (F := Ideal) s .f32 0x48255FC0#32) :=
  allReal_constant _ ⟨_, ofBits_f32_169343⟩

/-- The splat of the single-precision neighbour of `10⁻⁵` is a real array. -/
theorem allReal_constant_eps : AllReal (constant (F := Ideal) s .f32 0x3727C5AC#32) :=
  allReal_constant _ ⟨_, ofBits_f32_eps⟩

end Pointwise

/-! ## Re-indexings: every entry of the result is an entry of the operand -/

section Layout
variable {s t : Shape}

/-- An array read through any map of indices is real when the array is. -/
theorem allReal_comp (x : s.Idx → EReal) (f : t.Idx → s.Idx) (hx : AllReal x) : AllReal (fun j => x (f j)) :=
  fun j => hx (f j)

/-- The splat of a real scalar is a real array. -/
theorem allReal_broadcast (x : EReal) (hx : IsReal x) : AllReal (broadcast t x) := fun _ => hx

/-- A broadcast along named axes of a real array is real. -/
theorem allReal_broadcastInDim (dims : Fin s.rank → Fin t.rank) (h : s.BroadcastsInDim t dims) (x : s.Idx → EReal)
    (hx : AllReal x) : AllReal (broadcastInDim t dims h x) :=
  fun j => hx _

/-- A broadcast along leading axes of a real array is real. -/
theorem allReal_broadcastTo (x : s.Idx → EReal) (h : s.Broadcasts t) (hx : AllReal x) :
    AllReal (broadcastTo t x h) :=
  fun j => hx _

/-- A reshape of a real array is real. -/
theorem allReal_shapeCast (x : s.Idx → EReal) (h : s.ShapeCasts t) (hx : AllReal x) : AllReal (shapeCast t x h) :=
  fun j => hx _

/-- A slice of a real array is real. -/
theorem allReal_extractStridedSlice (off : Fin s.rank → Nat) (x : s.Idx → EReal) (h : s.Slices off t)
    (hx : AllReal x) : AllReal (extractStridedSlice t off x h) :=
  fun j => hx _

/-- A transpose of a real array is real. -/
theorem allReal_transpose (perm : List (Fin s.rank)) (x : s.Idx → EReal) (h : s.Transposes perm t)
    (hx : AllReal x) : AllReal (transpose t perm x h) :=
  fun j => hx _

/-- A gather from a real array is real, whatever the start indices: each result entry is the operand's entry at
    the (clamped) operand index. -/
theorem allReal_gather {si : Shape} {w : Nat} (d : GatherDims s si t) (x : s.Idx → EReal) (idx : IVec si w)
    (hx : AllReal x) : AllReal (Host.gather d x idx) :=
  fun j => hx _

end Layout

/-! ## Finite sums: scatter-add, sum-reduction, matrix product -/

section Sums

/-- The exact scatter-add into a real array of a real array of updates is real, whatever the indices: each entry
    is the operand's plus the finite sum of the updates that land on it. -/
theorem allReal_scatterAdd {s si u : Shape} {φ : FTy} {w : Nat} (d : ScatterDims s si u) (x : FVec Ideal s φ)
    (idx : IVec si w) (upd : FVec Ideal u φ) (hx : AllReal x) (hu : AllReal upd) :
    AllReal (Host.scatterAdd d x idx upd) := by
  intro i
  show IsReal (x i + ∑ j ∈ Finset.univ.filter (fun j => d.resultIdx? j idx = some i), upd j)
  exact IsReal.add (hx i) (isReal_sum _ _ fun j _ => hu j)

/-- The exact sum-reduction of a real array from a real initial value is real: each entry is the initial value
    plus the finite sum of the entries that reduce to it. -/
theorem allReal_reduceAdd {s t u : Shape} {φ : FTy} {axes : List (Fin s.rank)} (x : FVec Ideal s φ)
    (init : u.Idx → Ideal φ) (h : s.ReducesTo axes t) (hu : 0 < u.numel) (hx : AllReal x) (hi : AllReal init) :
    AllReal (Host.reduceAdd x init h hu) := by
  intro j
  show IsReal (init (Shape.Idx.first hu) + ∑ i ∈ Finset.univ.filter (fun i => h.drop i = j), x i)
  exact IsReal.add (hi _) (isReal_sum _ _ fun i _ => hx i)

/-- The exact matrix product of two real arrays is real: each entry is a finite sum of products. -/
theorem allReal_dotGeneral {sl sr so : Shape} {φ₁ φ₂ : FTy} (d : DotDims sl sr so) (prec : Option ContractPrecision)
    (l : FVec Ideal sl φ₁) (r : FVec Ideal sr φ₂) (hl : AllReal l) (hr : AllReal r) :
    AllReal (Host.dotGeneral d prec l r) := by
  intro j
  show IsReal (FloatOps.dotGeneral d prec .single l r j)
  rw [Ideal.dotGeneral_apply]
  exact isReal_sum _ _ fun k _ => IsReal.mul (hl _) (hr _)

/-- The exact matrix product accumulated into a real array is real. -/
theorem allReal_matmul {sl sr so : Shape} {φ₁ φ₂ : FTy} (d : DotDims sl sr so) (prec : Option ContractPrecision)
    (l : FVec Ideal sl φ₁) (r : FVec Ideal sr φ₂) (acc : FVec Ideal so .f32) (hl : AllReal l) (hr : AllReal r)
    (ha : AllReal acc) : AllReal (FloatOps.matmul d prec l r acc) := by
  intro j
  rw [Ideal.matmul_apply]
  exact IsReal.add (ha j) (isReal_sum _ _ fun k _ => IsReal.mul (hl _) (hr _))

end Sums

/-! ## Quotient and reciprocal square root -/

section Corners
variable {s : Shape} {φ : FTy}

/-- The exact quotient of a real array by an array of nonzero reals is real. -/
theorem allReal_divf (x y : FVec Ideal s φ) (hx : AllReal x) (hy : ∀ i, ∃ b : ℝ, b ≠ 0 ∧ y i = (b : EReal)) :
    AllReal (Host.divf x y) := by
  intro i
  obtain ⟨b, hb, e⟩ := hy i
  show IsReal (Ideal.div (x i) (y i))
  rw [e]; exact IsReal.div (hx i) hb

/-- The reciprocal square root of an array of positive reals is real. -/
theorem allReal_rsqrt (x : FVec Ideal s φ) (hx : ∀ i, ∃ r : ℝ, 0 < r ∧ x i = (r : EReal)) :
    AllReal (Host.rsqrt x) := by
  intro i
  obtain ⟨r, hr, e⟩ := hx i
  show IsReal (Ideal.rsqrt (x i))
  rw [e]; exact isReal_rsqrt hr

/-- `where (d > z) (rsqrt d) w` is real for every real array `d`, when `z` is nowhere negative and `w` is real:
    the reciprocal square root is read only where `d` exceeds `z`, hence is positive; elsewhere the entry is `w`'s. -/
theorem allReal_select_ogt_rsqrt (d z w : FVec Ideal s φ) (hd : AllReal d) (hz : ∀ i, 0 ≤ z i) (hw : AllReal w) :
    AllReal (select (cmpf .ogt d z) (Host.rsqrt d) w) := by
  refine allReal_select_of _ _ _ (fun i hc => ?_) (fun i _ => hw i)
  obtain ⟨r, e⟩ := hd i
  have hlt : z i < d i := by
    have hc' : BitVec.ofBool (decide (z i < d i)) = 1#1 := hc
    by_contra hn
    rw [decide_eq_false hn] at hc'
    exact absurd hc' (by decide)
  have hr : 0 < r := by
    have : (0 : EReal) < (r : EReal) := e ▸ lt_of_le_of_lt (hz i) hlt
    exact_mod_cast this
  show IsReal (Ideal.rsqrt (d i))
  rw [e]; exact isReal_rsqrt hr

end Corners

/-! ## Real entries as real numbers; signs -/

section Values
variable {s t : Shape} {φ : FTy}

/-- A real extended real is the coercion of its real part. -/
theorem IsReal.coe_toReal {x : EReal} (h : IsReal x) : ((x.toReal : ℝ) : EReal) = x := by
  obtain ⟨r, rfl⟩ := h; rfl

/-- Each entry of a real array is the coercion of its real part: `fun i => (v i).toReal` is the array as reals. -/
theorem AllReal.coe_toReal {v : s.Idx → EReal} (h : AllReal v) (i : s.Idx) : (((v i).toReal : ℝ) : EReal) = v i :=
  IsReal.coe_toReal (h i)

/-- An array given entrywise by coerced reals is real. -/
theorem allReal_of_eq_coe {v : s.Idx → EReal} (f : s.Idx → ℝ) (h : ∀ i, v i = (f i : EReal)) : AllReal v :=
  fun i => ⟨f i, h i⟩

/-- An array equal to a real array is real. -/
theorem AllReal.congr {v v' : s.Idx → EReal} (h : AllReal v) (e : ∀ i, v' i = v i) : AllReal v' :=
  fun i => (e i).symm ▸ h i

/-- An array every entry of which is a positive real number. -/
def AllPos (v : s.Idx → EReal) : Prop := ∀ i, ∃ r : ℝ, 0 < r ∧ v i = (r : EReal)

/-- An array every entry of which is a nonnegative real number. -/
def AllNonneg (v : s.Idx → EReal) : Prop := ∀ i, ∃ r : ℝ, 0 ≤ r ∧ v i = (r : EReal)

/-- An array every entry of which is a nonzero real number. -/
def AllNonzero (v : s.Idx → EReal) : Prop := ∀ i, ∃ r : ℝ, r ≠ 0 ∧ v i = (r : EReal)

/-- Positive reals are reals. -/
theorem AllPos.allReal {v : s.Idx → EReal} (h : AllPos v) : AllReal v :=
  fun i => let ⟨r, _, e⟩ := h i; ⟨r, e⟩

/-- Nonnegative reals are reals. -/
theorem AllNonneg.allReal {v : s.Idx → EReal} (h : AllNonneg v) : AllReal v :=
  fun i => let ⟨r, _, e⟩ := h i; ⟨r, e⟩

/-- Positive reals are not zero. -/
theorem AllPos.allNonzero {v : s.Idx → EReal} (h : AllPos v) : AllNonzero v :=
  fun i => let ⟨r, hr, e⟩ := h i; ⟨r, hr.ne', e⟩

/-- Positive reals are nonnegative. -/
theorem AllPos.allNonneg {v : s.Idx → EReal} (h : AllPos v) : AllNonneg v :=
  fun i => let ⟨r, hr, e⟩ := h i; ⟨r, hr.le, e⟩

/-- A real array that is nowhere negative is an array of nonnegative reals. -/
theorem AllReal.allNonneg {v : s.Idx → EReal} (h : AllReal v) (h0 : ∀ i, 0 ≤ v i) : AllNonneg v := by
  intro i
  obtain ⟨r, e⟩ := h i
  refine ⟨r, ?_, e⟩
  have : (0 : EReal) ≤ (r : EReal) := e ▸ h0 i
  exact_mod_cast this

/-- A real array that is everywhere positive is an array of positive reals. -/
theorem AllReal.allPos {v : s.Idx → EReal} (h : AllReal v) (h0 : ∀ i, 0 < v i) : AllPos v := by
  intro i
  obtain ⟨r, e⟩ := h i
  refine ⟨r, ?_, e⟩
  have : (0 : EReal) < (r : EReal) := e ▸ h0 i
  exact_mod_cast this

/-- A nonnegative array plus a positive array is positive. -/
theorem allPos_addf (x y : FVec Ideal s φ) (hx : AllNonneg x) (hy : AllPos y) : AllPos (addf x y) := by
  intro i
  obtain ⟨a, ha, ea⟩ := hx i
  obtain ⟨b, hb, eb⟩ := hy i
  refine ⟨a + b, by positivity, ?_⟩
  show x i + y i = _
  rw [ea, eb, EReal.coe_add]

/-- The sum of two nonnegative arrays is nonnegative. -/
theorem allNonneg_addf (x y : FVec Ideal s φ) (hx : AllNonneg x) (hy : AllNonneg y) : AllNonneg (addf x y) := by
  intro i
  obtain ⟨a, ha, ea⟩ := hx i
  obtain ⟨b, hb, eb⟩ := hy i
  refine ⟨a + b, by positivity, ?_⟩
  show x i + y i = _
  rw [ea, eb, EReal.coe_add]

/-- The product of two nonnegative arrays is nonnegative. -/
theorem allNonneg_mulf (x y : FVec Ideal s φ) (hx : AllNonneg x) (hy : AllNonneg y) : AllNonneg (mulf x y) := by
  intro i
  obtain ⟨a, ha, ea⟩ := hx i
  obtain ⟨b, hb, eb⟩ := hy i
  refine ⟨a * b, by positivity, ?_⟩
  show x i * y i = _
  rw [ea, eb, EReal.coe_mul]

/-- The splat of a bit pattern that denotes a positive real is a positive array. -/
theorem allPos_constant (bits : BitVec φ.bits) (h : ∃ r : ℝ, 0 < r ∧ Ideal.ofBits φ bits = (r : EReal)) :
    AllPos (constant (F := Ideal) s φ bits) :=
  fun _ => h

/-- The splat of the single-precision neighbour of `10⁻⁵` is a positive array. -/
theorem allPos_constant_eps : AllPos (constant (F := Ideal) s .f32 0x3727C5AC#32) :=
  allPos_constant _ ofBits_f32_eps_pos

/-- The splat of `169343.0` is a positive array. -/
theorem allPos_constant_169343 : AllPos (constant (F := Ideal) s .f32 0x48255FC0#32) :=
  allPos_constant _ ⟨_, by norm_num, ofBits_f32_169343⟩

/-- The splat of `1.0` is a positive array. -/
theorem allPos_constant_one : AllPos (constant (F := Ideal) s .f32 0x3F800000#32) :=
  allPos_constant _ ⟨_, by norm_num, ofBits_f32_one⟩

/-- The splat of `0.0` is a nonnegative array. -/
theorem allNonneg_constant_zero : AllNonneg (constant (F := Ideal) s .f32 0x00000000#32) :=
  fun _ => ⟨0, le_refl _, ofBits_f32_zero⟩

/-- A positive array read through any map of indices is positive. -/
theorem allPos_comp (x : s.Idx → EReal) (f : t.Idx → s.Idx) (hx : AllPos x) : AllPos (fun j => x (f j)) :=
  fun j => hx (f j)

/-- A broadcast along named axes of a positive array is positive. -/
theorem allPos_broadcastInDim (dims : Fin s.rank → Fin t.rank) (h : s.BroadcastsInDim t dims) (x : s.Idx → EReal)
    (hx : AllPos x) : AllPos (broadcastInDim t dims h x) :=
  fun j => hx _

/-- A broadcast along named axes of a nonnegative array is nonnegative. -/
theorem allNonneg_broadcastInDim (dims : Fin s.rank → Fin t.rank) (h : s.BroadcastsInDim t dims) (x : s.Idx → EReal)
    (hx : AllNonneg x) : AllNonneg (broadcastInDim t dims h x) :=
  fun j => hx _

/-- A broadcast along named axes of a nonzero array is nonzero. -/
theorem allNonzero_broadcastInDim (dims : Fin s.rank → Fin t.rank) (h : s.BroadcastsInDim t dims) (x : s.Idx → EReal)
    (hx : AllNonzero x) : AllNonzero (broadcastInDim t dims h x) :=
  fun j => hx _

/-- The exact quotient of a real array by a nonzero array is real. -/
theorem allReal_divf_of_allNonzero (x y : FVec Ideal s φ) (hx : AllReal x) (hy : AllNonzero y) :
    AllReal (Host.divf x y) :=
  allReal_divf x y hx hy

/-- The reciprocal square root of a positive array is a positive array. -/
theorem allPos_rsqrt (x : FVec Ideal s φ) (hx : AllPos x) : AllPos (Host.rsqrt x) := by
  intro i
  obtain ⟨r, hr, e⟩ := hx i
  refine ⟨(Real.sqrt r)⁻¹, inv_pos.mpr (Real.sqrt_pos.mpr hr), ?_⟩
  show Ideal.rsqrt (x i) = _
  rw [e]; exact rsqrt_coe_of_pos hr

/-- The exact scatter-add of nonnegative updates into a nonnegative array is nonnegative. -/
theorem allNonneg_scatterAdd {si u : Shape} {w : Nat} (d : ScatterDims s si u) (x : FVec Ideal s φ)
    (idx : IVec si w) (upd : FVec Ideal u φ) (hx : AllNonneg x) (hu : AllNonneg upd) :
    AllNonneg (Host.scatterAdd d x idx upd) := by
  refine (allReal_scatterAdd d x idx upd hx.allReal hu.allReal).allNonneg fun i => ?_
  show 0 ≤ x i + ∑ j ∈ Finset.univ.filter (fun j => d.resultIdx? j idx = some i), upd j
  refine add_nonneg ?_ (Finset.sum_nonneg fun j _ => ?_)
  · obtain ⟨a, ha, ea⟩ := hx i; rw [ea]; exact_mod_cast ha
  · obtain ⟨b, hb, eb⟩ := hu j; rw [eb]; exact_mod_cast hb

/-- The in-kernel exact sum-reduction of a real array is real: each entry is a finite sum of entries. -/
theorem allReal_idealReduceAdd {axes : List (Fin s.rank)} (h : s.Reduces axes t) (x : s.Idx → EReal)
    (hx : AllReal x) : AllReal (Ideal.reduceAdd h x) :=
  fun j => isReal_sum _ _ fun i _ => hx i

end Values

/-! ## From a printed finiteness test to a real array -/

section Finite

/-- The single-precision pattern of `+inf` is `⊤`. -/
theorem ofBits_f32_inf : Ideal.ofBits .f32 0x7F800000#32 = ⊤ := by
  simp [Ideal.ofBits, Ideal.ieee]

/-- An entry whose absolute value is below some bound is a real number: a bound is at most `⊤`, and the
    absolute value of either infinity is `⊤`. -/
theorem isReal_of_cmpf_olt_absf {φ : FTy} (a b : Ideal φ) (h : FloatOps.cmpf .olt (FloatOps.hostAbsf a) b = 1#1) :
    IsReal a := by
  have hlt : max a (-a) < b := by
    have hc : BitVec.ofBool (decide (max a (-a) < b)) = 1#1 := h
    by_contra hn
    rw [decide_eq_false hn] at hc
    exact absurd hc (by decide)
  exact isReal_of_abs_lt_top (lt_of_lt_of_le hlt le_top)

/-- `all (|x| < y)`, an `and`-reduction over every axis of the pointwise test, came out true: then `x` is a
    real array (whatever the bound `y` is: the positive infinity in a finiteness test). -/
theorem allReal_of_reduce_andi_abs_lt {s t u : Shape} {φ : FTy} {axes : List (Fin s.rank)} [Subsingleton t.Idx]
    (x y : FVec Ideal s φ) (init : u.Idx → BitVec 1) (h : s.ReducesTo axes t) (hu : 0 < u.numel) (j : t.Idx)
    (e : Host.reduce IntOp.andi (cmpf .olt (Host.absf x) y) init h hu j = 1#1) : AllReal x :=
  fun i => isReal_of_cmpf_olt_absf (x i) (y i) (Host.reduce_andi_all _ init h hu j e i)

end Finite

end Cert.Lib.AllReal

end
-- ==== Proof.Finite.lean ====
/-
  Finiteness of the inputs, and what it buys.

  At the ideal float instance a float is an extended real. The precondition says that every float input passes
  the test "all |x| < +inf"; decoded, every entry of each of the five float inputs is a real number. Two further
  facts the value proof uses sit here: the normalising factors of the nodes (the reciprocal square root of
  max(degree, 1), the degree a count) are positive reals, and a real factor distributes over a finite sum of
  reals (over the extended reals in general it does not: with ⊤ + ⊥ = ⊥, the factor −1 times ⊤ + ⊥ is ⊤, while the
  sum of the two products is ⊥ + ⊤ = ⊥).
-/
import proofs.«131309_j50208167690258_2_alg».proof.Defs
import proofs.«131309_j50208167690258_2_alg».proof.Proof.Gen.ReferenceIdeal.Read
import proofs.«131309_j50208167690258_2_alg».proof.Proof.LibAllReal

noncomputable section

namespace Cert.Gcn.Finite

open Idealize.ShloMosaic Idealize.ShloMosaic.ValueIdx Idealize.SL.Sem Cert.Lib.AllReal

/-! ## A real factor over a finite sum of reals -/

/-- A real factor distributes over a finite sum of reals (it does not over the extended reals in general). -/
theorem mul_sum_real {ι : Type*} (S : Finset ι) (a : EReal) (f : ι → EReal) (ha : IsReal a)
    (hf : ∀ e ∈ S, IsReal (f e)) : a * ∑ e ∈ S, f e = ∑ e ∈ S, a * f e := by
  classical
  obtain ⟨r, rfl⟩ := ha
  induction S using Finset.induction_on with
  | empty => rw [Finset.sum_empty, Finset.sum_empty, mul_zero]
  | insert k S hk ih =>
    have hS : ∀ e ∈ S, IsReal (f e) := fun e he => hf e (Finset.mem_insert_of_mem he)
    rw [Finset.sum_insert hk, Finset.sum_insert hk, ← ih hS]
    obtain ⟨x, hx⟩ := hf k (Finset.mem_insert_self k S)
    obtain ⟨y, hy⟩ := isReal_sum S f hS
    rw [hx, hy, ← EReal.coe_add, ← EReal.coe_mul, ← EReal.coe_mul, ← EReal.coe_mul, ← EReal.coe_add, mul_add]

/-! ## The normalising factors are positive reals -/

/-- The pointwise maximum of a real array and a positive-real array is positive-real: the greater of two reals
    is one of them, and it is at least the second, which is positive. -/
theorem allPos_maximumf {s : Shape} {φ : FTy} (x y : FVec Ideal s φ) (hx : AllReal x) (hy : AllPos y) :
    AllPos (maximumf x y) := by
  intro i
  obtain ⟨a, ea⟩ := hx i
  obtain ⟨b, hb, eb⟩ := hy i
  show ∃ r : ℝ, 0 < r ∧ max (x i) (y i) = (r : EReal)
  rw [ea, eb]
  rcases le_total a b with h | h
  · exact ⟨b, hb, max_eq_right (EReal.coe_le_coe_iff.mpr h)⟩
  · exact ⟨a, lt_of_lt_of_le hb h, max_eq_left (EReal.coe_le_coe_iff.mpr h)⟩

/-- The normalising factors: the reciprocal square root of max(degree, 1), where the degree is a count (0 plus a
    sum of ones): at least 1, so its reciprocal square root is a positive real. -/
theorem dinv_pos (x1 : (⟨Cert.ReferenceIdeal.S2x800000, .i32⟩ : BufTy).Contents (Elt Ideal)) :
    AllPos (Cert.ReferenceIdeal.Read.val_main_v13 (F := Ideal) x1) := by
  unfold Cert.ReferenceIdeal.Read.val_main_v13 Cert.ReferenceIdeal.Read.val_main_v12
  refine allPos_rsqrt _ (allPos_maximumf _ _ ?_ ?_)
  · unfold Cert.ReferenceIdeal.Read.val_main_v10
    refine (allNonneg_scatterAdd _ _ _ _ ?_ ?_).allReal
    · unfold Cert.ReferenceIdeal.Read.val_main_v8 Cert.ReferenceIdeal.Read.val_main_cst_0
      exact allNonneg_broadcastInDim _ _ _ allNonneg_constant_zero
    · unfold Cert.ReferenceIdeal.Read.val_main_v7 Cert.ReferenceIdeal.Read.val_main_cst
      exact allNonneg_broadcastInDim _ _ _ allPos_constant_one.allNonneg
  · unfold Cert.ReferenceIdeal.Read.val_main_v11 Cert.ReferenceIdeal.Read.val_main_cst_1
    exact allPos_broadcastInDim _ _ _ allPos_constant_one

/-! ## Every float input is a real array -/

/-- The finiteness test, decoded: when "all |x| < +inf" of each of the five float arrays, and-ed, comes out true,
    every entry of each of them is a real number. The conjunction is split bit by bit; each conjunct is an
    and-reduction over every axis of a pointwise test, true only when the test holds at every entry; and an
    extended real whose absolute value is below a bound is neither infinity. -/
theorem allReal_of_fn [Cert.Pre_finite_inputs.Facts]
    (a0 : FVec Ideal Cert.Pre_finite_inputs.S50000x128 .f32) (a1 : IVec Cert.Pre_finite_inputs.S2x800000 32)
    (a2 : FVec Ideal Cert.Pre_finite_inputs.S128x128 .f32) (a3 : FVec Ideal Cert.Pre_finite_inputs.S128 .f32)
    (a4 : FVec Ideal Cert.Pre_finite_inputs.S128x64 .f32) (a5 : FVec Ideal Cert.Pre_finite_inputs.S64 .f32)
    (h : Cert.Pre_finite_inputs.fn (F := Ideal) a0 a1 a2 a3 a4 a5 = fun _ => 1#1) :
    AllReal a0 ∧ AllReal a2 ∧ AllReal a3 ∧ AllReal a4 ∧ AllReal a5 := by
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  obtain ⟨h0234, h5⟩ := IntOp.andi_eq_one.1 h0
  obtain ⟨h023, h4⟩ := IntOp.andi_eq_one.1 h0234
  obtain ⟨h02, h3⟩ := IntOp.andi_eq_one.1 h023
  obtain ⟨h0', h2⟩ := IntOp.andi_eq_one.1 h02
  exact ⟨allReal_of_reduce_andi_abs_lt _ _ _ _ _ _ h0', allReal_of_reduce_andi_abs_lt _ _ _ _ _ _ h2,
    allReal_of_reduce_andi_abs_lt _ _ _ _ _ _ h3, allReal_of_reduce_andi_abs_lt _ _ _ _ _ _ h4,
    allReal_of_reduce_andi_abs_lt _ _ _ _ _ _ h5⟩

/-- Under the precondition, on every device, each of the five float argument arrays is a real array. -/
theorem real_inputs [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (s := Cert.KernelIdeal.S50000x128) (m ((c.tc : Thread Cert.KernelIdeal.nD Cert.KernelIdeal.τ).loc Cert.KernelIdeal.main_arg0))
    ∧ AllReal (s := Cert.KernelIdeal.S128x128) (m ((c.tc : Thread Cert.KernelIdeal.nD Cert.KernelIdeal.τ).loc Cert.KernelIdeal.main_arg2))
    ∧ AllReal (s := Cert.KernelIdeal.S128) (m ((c.tc : Thread Cert.KernelIdeal.nD Cert.KernelIdeal.τ).loc Cert.KernelIdeal.main_arg3))
    ∧ AllReal (s := Cert.KernelIdeal.S128x64) (m ((c.tc : Thread Cert.KernelIdeal.nD Cert.KernelIdeal.τ).loc Cert.KernelIdeal.main_arg4))
    ∧ AllReal (s := Cert.KernelIdeal.S64) (m ((c.tc : Thread Cert.KernelIdeal.nD Cert.KernelIdeal.τ).loc Cert.KernelIdeal.main_arg5)) :=
  allReal_of_fn _ _ _ _ _ _ (h c)

/-! ## The reference's dense intermediates are real arrays

  Every stage between the inputs and the second matrix product is one of: a matrix product, a gather, a
  broadcast, a pointwise product, sum or maximum, a scatter-add into zeros, or the splat of 0. Each keeps
  "every entry is a real number", so the predicate is carried stage by stage from the inputs (real by the
  precondition) and the normalising factors (positive reals, hence reals). -/

section Reference

open Cert.ReferenceIdeal Cert.ReferenceIdeal.Read

variable (x0 : (⟨Cert.ReferenceIdeal.S50000x128, .f32⟩ : BufTy).Contents (Elt Ideal))
  (x1 : (⟨Cert.ReferenceIdeal.S2x800000, .i32⟩ : BufTy).Contents (Elt Ideal))
  (x2 : (⟨Cert.ReferenceIdeal.S128x128, .f32⟩ : BufTy).Contents (Elt Ideal))
  (x3 : (⟨Cert.ReferenceIdeal.S128, .f32⟩ : BufTy).Contents (Elt Ideal))
  (x4 : (⟨Cert.ReferenceIdeal.S128x64, .f32⟩ : BufTy).Contents (Elt Ideal))

/-- The normalising factors are reals: they are positive reals. -/
theorem allReal_v13 : AllReal (s := Cert.ReferenceIdeal.S50000) (val_main_v13 (F := Ideal) x1) :=
  (dinv_pos x1).allReal

/-- The factor of each edge's source node: an entry of the normalising factors. -/
theorem allReal_v20 : AllReal (s := Cert.ReferenceIdeal.S850000) (val_main_v20 (F := Ideal) x1) := by
  unfold val_main_v20
  exact allReal_gather _ _ _ (allReal_v13 x1)

/-- The factor of each edge's target node: an entry of the normalising factors. -/
theorem allReal_v27 : AllReal (s := Cert.ReferenceIdeal.S850000) (val_main_v27 (F := Ideal) x1) := by
  unfold val_main_v27
  exact allReal_gather _ _ _ (allReal_v13 x1)

/-- The weight of each edge, the product of its two nodes' factors, is real. -/
theorem allReal_v28 : AllReal (s := Cert.ReferenceIdeal.S850000) (val_main_v28 (F := Ideal) x1) := by
  unfold val_main_v28
  exact allReal_mulf _ _ (allReal_v20 x1) (allReal_v27 x1)

/-- The first dense layer, the matrix product of the features and the first weights, is real: each entry is a
    finite sum of products of reals. -/
theorem allReal_v29 (h0 : AllReal (s := Cert.ReferenceIdeal.S50000x128) x0)
    (h2 : AllReal (s := Cert.ReferenceIdeal.S128x128) x2) :
    AllReal (s := Cert.ReferenceIdeal.S50000x128) (val_main_v29 (F := Ideal) x0 x2) := by
  unfold val_main_v29
  exact allReal_dotGeneral _ _ _ _ h0 h2

/-- The row of the first dense layer at each edge's source node: rows of a real array. -/
theorem allReal_v36 (h0 : AllReal (s := Cert.ReferenceIdeal.S50000x128) x0)
    (h2 : AllReal (s := Cert.ReferenceIdeal.S128x128) x2) :
    AllReal (s := Cert.ReferenceIdeal.S850000x128) (val_main_v36 (F := Ideal) x0 x1 x2) := by
  unfold val_main_v36
  exact allReal_gather _ _ _ (allReal_v29 x0 x2 h0 h2)

/-- The edge weights repeated along the feature axis. -/
theorem allReal_v38 : AllReal (s := Cert.ReferenceIdeal.S850000x128) (val_main_v38 (F := Ideal) x1) := by
  unfold val_main_v38 val_main_v37
  exact allReal_broadcastInDim _ _ _ (allReal_broadcastInDim _ _ _ (allReal_v28 x1))

/-- The weighted message of each edge is real. -/
theorem allReal_v39 (h0 : AllReal (s := Cert.ReferenceIdeal.S50000x128) x0)
    (h2 : AllReal (s := Cert.ReferenceIdeal.S128x128) x2) :
    AllReal (s := Cert.ReferenceIdeal.S850000x128) (val_main_v39 (F := Ideal) x0 x1 x2) := by
  unfold val_main_v39
  exact allReal_mulf _ _ (allReal_v36 x0 x1 x2 h0 h2) (allReal_v38 x1)

/-- The zero array the messages are summed into. -/
theorem allReal_v40 : AllReal (s := Cert.ReferenceIdeal.S50000x128) (val_main_v40 (F := Ideal)) := by
  unfold val_main_v40 val_main_cst_7
  exact allReal_broadcastInDim _ _ _ allReal_constant_zero

/-- The aggregated messages of each node, a finite sum of real messages added to zero, are real. -/
theorem allReal_v42 (h0 : AllReal (s := Cert.ReferenceIdeal.S50000x128) x0)
    (h2 : AllReal (s := Cert.ReferenceIdeal.S128x128) x2) :
    AllReal (s := Cert.ReferenceIdeal.S50000x128) (val_main_v42 (F := Ideal) x0 x1 x2) := by
  unfold val_main_v42
  exact allReal_scatterAdd _ _ _ _ allReal_v40 (allReal_v39 x0 x1 x2 h0 h2)

/-- The first bias repeated along the node axis. -/
theorem allReal_v44 (h3 : AllReal (s := Cert.ReferenceIdeal.S128) x3) :
    AllReal (s := Cert.ReferenceIdeal.S50000x128) (val_main_v44 (F := Ideal) x3) := by
  unfold val_main_v44 val_main_v43
  exact allReal_broadcastInDim _ _ _ (allReal_broadcastInDim _ _ _ h3)

/-- The aggregated messages plus the bias are real. -/
theorem allReal_v45 (h0 : AllReal (s := Cert.ReferenceIdeal.S50000x128) x0)
    (h2 : AllReal (s := Cert.ReferenceIdeal.S128x128) x2) (h3 : AllReal (s := Cert.ReferenceIdeal.S128) x3) :
    AllReal (s := Cert.ReferenceIdeal.S50000x128) (val_main_v45 (F := Ideal) x0 x1 x2 x3) := by
  unfold val_main_v45
  exact allReal_addf _ _ (allReal_v42 x0 x1 x2 h0 h2) (allReal_v44 x3 h3)

/-- The zero array of the rectifier. -/
theorem allReal_call0_v0 : AllReal (s := Cert.ReferenceIdeal.S50000x128) (val_main_call0_v0 (F := Ideal)) := by
  unfold val_main_call0_v0 val_main_call0_cst
  exact allReal_broadcastInDim _ _ _ allReal_constant_zero

/-- The rectified hidden layer, the maximum of a real array and zero, is real. -/
theorem allReal_v46 (h0 : AllReal (s := Cert.ReferenceIdeal.S50000x128) x0)
    (h2 : AllReal (s := Cert.ReferenceIdeal.S128x128) x2) (h3 : AllReal (s := Cert.ReferenceIdeal.S128) x3) :
    AllReal (s := Cert.ReferenceIdeal.S50000x128) (val_main_v46 (F := Ideal) x0 x1 x2 x3) := by
  unfold val_main_v46
  exact allReal_maximumf _ _ (allReal_v45 x0 x1 x2 x3 h0 h2 h3) allReal_call0_v0

/-- The second dense layer, the matrix product of the hidden layer and the second weights, is real. -/
theorem allReal_v47 (h0 : AllReal (s := Cert.ReferenceIdeal.S50000x128) x0)
    (h2 : AllReal (s := Cert.ReferenceIdeal.S128x128) x2) (h3 : AllReal (s := Cert.ReferenceIdeal.S128) x3)
    (h4 : AllReal (s := Cert.ReferenceIdeal.S128x64) x4) :
    AllReal (s := Cert.ReferenceIdeal.S50000x64) (val_main_v47 (F := Ideal) x0 x1 x2 x3 x4) := by
  unfold val_main_v47
  exact allReal_dotGeneral _ _ _ _ (allReal_v46 x0 x1 x2 x3 h0 h2 h3) h4

end Reference

end Cert.Gcn.Finite

end
-- ==== Proof.Bridge.lean ====
/-
  The two programs compute one function.

  Write d(n) for node n's normalising factor, s(e) for the node that edge e's source index names (read signed, wrapped
  if negative, clamped into the node range) and say that edge e is AIMED AT n when its destination index, read signed,
  is exactly n (an edge aimed at no node is dropped by the accumulation). For a real array h of node rows, the reference
  forms, per layer,

      sum over the edges e aimed at n of  h(s e, k) · (d(s e) · d(t e)),

  with t(e) the node its destination index names after the same wrapping and clamping, while the kernel scales the rows
  first, accumulates, and scales the sum:

      d(n) · sum over the edges e aimed at n of  (h(s e, k) · d(s e)).

  An edge aimed at n has t(e) = n, products of extended reals commute and associate, and a REAL factor distributes over
  a finite sum of REALS — that is where the precondition (every float input finite) is used: h is a finite sum of
  products of inputs, and d is the reciprocal square root of a count that is at least 1. The bias, the cap at zero, the
  second matrix product and the final row softmax are then the same operations on equal rows.
-/
import proofs.«131309_j50208167690258_2_alg».proof.Proof.KValue
import proofs.«131309_j50208167690258_2_alg».proof.Proof.RefRead
import proofs.«131309_j50208167690258_2_alg».proof.Proof.RefGather
import proofs.«131309_j50208167690258_2_alg».proof.Proof.Finite
import proofs.«131309_j50208167690258_2_alg».proof.Proof.LibScatterGather
import proofs.«131309_j50208167690258_2_alg».proof.Proof.LibColumn
import proofs.«131309_j50208167690258_2_alg».proof.Proof.LibRows

noncomputable section

open scoped BigOperators

namespace Cert.Bridge

open Cert.ReferenceIdeal Cert.ReferenceIdeal.Read Cert.ReferenceIdeal.Gen Cert.ReferenceIdeal.RefRead Cert.ReferenceIdeal.GS
open Cert.KernelIdeal.KValue (dcol K1 K2 K3 agg128 agg64)
open Cert.Lib.AllReal Cert.Gcn Cert.Gcn.Finite
open Idealize.ShloMosaic Idealize.ShloMosaic.ValueIdx

/-! ## The law -/

/-- Scaling before and after the accumulation is scaling each summand by both factors. -/
theorem agg_law {ι : Type*} (S : Finset ι) (dn : EReal) (hv dsv dtv : ι → EReal) (hdn : IsReal dn)
    (hh : ∀ e ∈ S, IsReal (hv e)) (hd : ∀ e ∈ S, IsReal (dsv e)) (ht : ∀ e ∈ S, dtv e = dn) :
    dn * (zero32 + ∑ e ∈ S, hv e * dsv e) = zero32 + ∑ e ∈ S, hv e * (dsv e * dtv e) := by
  have hz : zero32 = 0 := Ideal.ofBits_zero_f32
  rw [hz, zero_add, zero_add, mul_sum_real S dn _ hdn (fun e he => (hh e he).mul (hd e he))]
  refine Finset.sum_congr rfl fun e he => ?_
  rw [ht e he, mul_comm dn, mul_assoc]

variable (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal))

/-! ## The kernel's pieces read at an index -/

/-- The factor column at row r is node r's factor. -/
theorem dcol_apply (r : Fin 50000) : dcol x1 (ix2 r (0 : Fin 1)) = val_main_v13 (F := Ideal) x1 (ix1 r) :=
  Cert.Lib.Column.shapeCast_a_a1_apply (a := 50000) (val_main_v13 (F := Ideal) x1) _ r 0

/-- The first stage's result at (r, j): the first product's entry times node r's factor. -/
theorem K1_apply (r : Fin 50000) (j : Fin 128) :
    K1 x0 x1 x2 (ix2 r j) = val_main_v29 (F := Ideal) x0 x2 (ix2 r j) * val_main_v13 (F := Ideal) x1 (ix1 r) := by
  show scaledProduct x0 x2 (dcol x1) (ix2 r j) = _
  rw [scaledProduct_apply, dcol_apply, v29_apply]

/-- Rows gathered at the source indices and added up at the destination indices, read at (n, k). -/
theorem agg128_apply (h : FVec Ideal S50000x128 .f32) (n : Fin 50000) (k : Fin 128) :
    agg128 x1 h (ix2 n k)
      = val_main_v40 (F := Ideal) (ix2 n k)
        + ∑ e ∈ Finset.univ.filter (fun e : Fin 850000 =>
            (val_main_v41 (F := Ideal) x1 (ix2 e (0 : Fin 1))).toInt = (n.val : Int)),
          h (ix2 (rowOf (val_main_v35 (F := Ideal) x1) e) k) := by
  show Host.scatterAdd (F := Ideal) (φ := .f32) scatter_S50000x128_S850000x1_S850000x128_1_0_0_1 (val_main_v40 (F := Ideal))
      (val_main_v41 (F := Ideal) x1)
      (Host.gather gather_S50000x128_S850000x1_S850000x128_1_0_n_n_0_1_1128 h (val_main_v35 (F := Ideal) x1)) (ix2 n k) = _
  rewrite [scatter128_eq, scatterAdd_ideal, gather128_eq]
  refine (Cert.LibScatterGather.scatterAdd_rows_apply (H := 50000) (W := 128) (N := 850000)
    Facts₀.scatter_S50000x128_S850000x1_S850000x128_1_0_0_1_wf (val_main_v40 (F := Ideal))
    (val_main_v41 (F := Ideal) x1) _ n k).trans ?_
  refine congrArg _ (Finset.sum_congr rfl fun e _ => ?_)
  exact Cert.LibScatterGather.gather_rows_apply (H := 50000) (W := 128) (N := 850000)
    Facts₀.gather_S50000x128_S850000x1_S850000x128_1_0_n_n_0_1_1128_wf (val_main_v35 (F := Ideal) x1) e k (Nat.succ_pos _) h

theorem agg64_apply (h : FVec Ideal S50000x64 .f32) (n : Fin 50000) (j : Fin 64) :
    agg64 x1 h (ix2 n j)
      = val_main_v58 (F := Ideal) (ix2 n j)
        + ∑ e ∈ Finset.univ.filter (fun e : Fin 850000 =>
            (val_main_v59 (F := Ideal) x1 (ix2 e (0 : Fin 1))).toInt = (n.val : Int)),
          h (ix2 (rowOf (val_main_v53 (F := Ideal) x1) e) j) := by
  show Host.scatterAdd (F := Ideal) (φ := .f32) scatter_S50000x64_S850000x1_S850000x64_1_0_0_1 (val_main_v58 (F := Ideal))
      (val_main_v59 (F := Ideal) x1)
      (Host.gather gather_S50000x64_S850000x1_S850000x64_1_0_n_n_0_1_164 h (val_main_v53 (F := Ideal) x1)) (ix2 n j) = _
  rewrite [scatter64_eq, scatterAdd_ideal, gather64_eq]
  refine (Cert.LibScatterGather.scatterAdd_rows_apply (H := 50000) (W := 64) (N := 850000)
    Facts₀.scatter_S50000x64_S850000x1_S850000x64_1_0_0_1_wf (val_main_v58 (F := Ideal))
    (val_main_v59 (F := Ideal) x1) _ n j).trans ?_
  refine congrArg _ (Finset.sum_congr rfl fun e _ => ?_)
  exact Cert.LibScatterGather.gather_rows_apply (H := 50000) (W := 64) (N := 850000)
    Facts₀.gather_S50000x64_S850000x1_S850000x64_1_0_n_n_0_1_164_wf (val_main_v53 (F := Ideal) x1) e j (Nat.succ_pos _) h

/-! ## The first layer -/

/-- THE FIRST LAYER: the kernel's accumulated rows, scaled by the node's factor, are the reference's accumulated rows. -/
theorem layer1 (h0 : AllReal (s := S50000x128) x0) (h2 : AllReal (s := S128x128) x2) (n : Fin 50000) (k : Fin 128) :
    val_main_v13 (F := Ideal) x1 (ix1 n) * agg128 x1 (K1 x0 x1 x2) (ix2 n k) = val_main_v42 (F := Ideal) x0 x1 x2 (ix2 n k) := by
  rw [agg128_apply, v42_apply, v40_apply]
  have hL : ∀ e : Fin 850000, K1 x0 x1 x2 (ix2 (rowOf (val_main_v35 (F := Ideal) x1) e) k)
      = val_main_v29 (F := Ideal) x0 x2 (ix2 (rowOf (val_main_v19 (F := Ideal) x1) e) k)
        * val_main_v13 (F := Ideal) x1 (ix1 (rowOf (val_main_v19 (F := Ideal) x1) e)) := fun e => by
    rw [v35_eq]; exact K1_apply x0 x1 x2 _ k
  have hR : ∀ e : Fin 850000, val_main_v39 (F := Ideal) x0 x1 x2 (ix2 e k)
      = val_main_v29 (F := Ideal) x0 x2 (ix2 (rowOf (val_main_v19 (F := Ideal) x1) e) k)
        * (val_main_v13 (F := Ideal) x1 (ix1 (rowOf (val_main_v19 (F := Ideal) x1) e))
          * val_main_v13 (F := Ideal) x1 (ix1 (rowOf (val_main_v26 (F := Ideal) x1) e))) := fun e => by
    rw [v39_apply, v36_apply, v35_eq, v28_apply, v20_apply, v27_apply]
  simp only [hL, hR]
  exact agg_law _ _ _ _ _ (allReal_v13 x1 (ix1 n)) (fun e _ => allReal_v29 x0 x2 h0 h2 _) (fun e _ => allReal_v13 x1 _)
    (fun e he => by rw [dst_row x1 e n (Finset.mem_filter.mp he).2])

/-- The second stage's result at (r, j): the second product's entry times node r's factor. -/
theorem K2_apply (h0 : AllReal (s := S50000x128) x0) (h2 : AllReal (s := S128x128) x2) (r : Fin 50000) (j : Fin 64) :
    K2 x0 x1 x2 x3 x4 (ix2 r j) = val_main_v47 (F := Ideal) x0 x1 x2 x3 x4 (ix2 r j) * val_main_v13 (F := Ideal) x1 (ix1 r) := by
  show reluLayer (agg128 x1 (K1 x0 x1 x2)) (dcol x1) (shapeCast S1x128 x3 _) x4 (ix2 r j) = _
  rw [reluLayer_apply, dcol_apply, v47_apply]
  refine congrArg₂ (· * ·) (Finset.sum_congr rfl fun kk _ => ?_) rfl
  rw [layer1 x0 x1 x2 h0 h2, Cert.Lib.Rows.shapeCast_row_apply, v46_apply, v45_apply]

/-! ## The second layer -/

theorem layer2 (h0 : AllReal (s := S50000x128) x0) (h2 : AllReal (s := S128x128) x2) (h3 : AllReal (s := S128) x3)
    (h4 : AllReal (s := S128x64) x4) (n : Fin 50000) (j : Fin 64) :
    val_main_v13 (F := Ideal) x1 (ix1 n) * agg64 x1 (K2 x0 x1 x2 x3 x4) (ix2 n j) = val_main_v60 (F := Ideal) x0 x1 x2 x3 x4 (ix2 n j) := by
  rw [agg64_apply, v60_apply, v58_apply]
  have hL : ∀ e : Fin 850000, K2 x0 x1 x2 x3 x4 (ix2 (rowOf (val_main_v53 (F := Ideal) x1) e) j)
      = val_main_v47 (F := Ideal) x0 x1 x2 x3 x4 (ix2 (rowOf (val_main_v19 (F := Ideal) x1) e) j)
        * val_main_v13 (F := Ideal) x1 (ix1 (rowOf (val_main_v19 (F := Ideal) x1) e)) := fun e => by
    rw [v53_eq]; exact K2_apply x0 x1 x2 x3 x4 h0 h2 _ j
  have hR : ∀ e : Fin 850000, val_main_v57 (F := Ideal) x0 x1 x2 x3 x4 (ix2 e j)
      = val_main_v47 (F := Ideal) x0 x1 x2 x3 x4 (ix2 (rowOf (val_main_v19 (F := Ideal) x1) e) j)
        * (val_main_v13 (F := Ideal) x1 (ix1 (rowOf (val_main_v19 (F := Ideal) x1) e))
          * val_main_v13 (F := Ideal) x1 (ix1 (rowOf (val_main_v26 (F := Ideal) x1) e))) := fun e => by
    rw [v57_apply, v54_apply, v53_eq, v28_apply, v20_apply, v27_apply]
  simp only [hL, hR, v59_eq]
  exact agg_law _ _ _ _ _ (allReal_v13 x1 (ix1 n)) (fun e _ => allReal_v47 x0 x1 x2 x3 x4 h0 h2 h3 h4 _) (fun e _ => allReal_v13 x1 _)
    (fun e he => by rw [dst_row x1 e n (Finset.mem_filter.mp he).2])

/-! ## The result -/

/-- THE BRIDGE: on real inputs the kernel program's result term is the reference program's. -/
theorem result_eq (h0 : AllReal (s := S50000x128) x0) (h2 : AllReal (s := S128x128) x2) (h3 : AllReal (s := S128) x3)
    (h4 : AllReal (s := S128x64) x4) :
    K3 x0 x1 x2 x3 x4 x5 = val_main_v74 (F := Ideal) x0 x1 x2 x3 x4 x5 := by
  funext i
  obtain ⟨n, j, rfl⟩ : ∃ (n : Fin 50000) (j : Fin 64), i = ix2 n j := ⟨i 0, i 1, eq_ix2 i⟩
  rw [tail_apply]
  show softmaxLayer (agg64 x1 (K2 x0 x1 x2 x3 x4)) (dcol x1) (shapeCast S1x64 x5 _) (ix2 n j) = _
  rw [softmaxLayer_apply]
  refine congrArg (fun z => softmaxRow z j) (funext fun q => ?_)
  rw [dcol_apply, layer2 x0 x1 x2 x3 x4 h0 h2 h3 h4, Cert.Lib.Rows.shapeCast_row_apply, v63_apply]

end Cert.Bridge

end
-- ==== Proof.lean ====
/-
  A two-layer graph convolution with a row softmax, as a pipelined kernel program, against its plain reference.

  Both programs normalise by the nodes' degrees: with d(n) the reciprocal square root of max(degree of n, 1), a layer
  sends node rows h to  sum over the edges e into n of  h(source of e) · d(source of e) · d(n),  plus a bias. The
  reference multiplies each gathered row by the edge's weight d(source)·d(destination) and then accumulates; the kernel
  program scales the rows by d before gathering them and scales the accumulated rows by d again afterwards, inside its
  dense stages. Over the extended reals the two agree because a real factor distributes over a finite sum of reals:
  the precondition (every float input finite) makes every intermediate row real, and d is a positive real.

  The frames of the two kernel programs are the generated frame theorems; the reference's frame is its generated run
  with the result dropped. No operation was rewritten between the kernel program and its idealisation. For the value
  claim the kernel program's run names its result array (the buffer contents folded through three stretches of host
  operations and three stages), that array is one term of the arguments, and the term equals the reference's on real inputs.
-/
import proofs.«131309_j50208167690258_2_alg».proof.Defs
import proofs.«131309_j50208167690258_2_alg».proof.Proof.Gen.Kernel
import proofs.«131309_j50208167690258_2_alg».proof.Proof.Gen.Kernel.Skeleton
import proofs.«131309_j50208167690258_2_alg».proof.Proof.Gen.Kernel.Launch
import proofs.«131309_j50208167690258_2_alg».proof.Proof.Gen.Kernel.Points
import proofs.«131309_j50208167690258_2_alg».proof.Proof.Gen.Kernel.Frame
import proofs.«131309_j50208167690258_2_alg».proof.Proof.Gen.KernelIdeal
import proofs.«131309_j50208167690258_2_alg».proof.Proof.Gen.KernelIdeal.Skeleton
import proofs.«131309_j50208167690258_2_alg».proof.Proof.Gen.KernelIdeal.Launch
import proofs.«131309_j50208167690258_2_alg».proof.Proof.Gen.KernelIdeal.Points
import proofs.«131309_j50208167690258_2_alg».proof.Proof.Gen.KernelIdeal.Frame
import proofs.«131309_j50208167690258_2_alg».proof.Proof.Gen.ReferenceIdeal
import proofs.«131309_j50208167690258_2_alg».proof.Proof.Gen.Pre_finite_inputs
import proofs.«131309_j50208167690258_2_alg».proof.Proof.Gen.ReferenceIdeal.Run
import proofs.«131309_j50208167690258_2_alg».proof.Proof.Gen.ReferenceIdeal.Read
import proofs.«131309_j50208167690258_2_alg».proof.Proof.RunValue
import proofs.«131309_j50208167690258_2_alg».proof.Proof.KValue
import proofs.«131309_j50208167690258_2_alg».proof.Proof.Bridge
import proofs.«131309_j50208167690258_2_alg».proof.Proof.Finite
import Idealize.ShloMosaic.Adequacy
import Idealize.ShloMosaic.Init

noncomputable section

namespace Cert.Proof

open Idealize.ShloMosaic Idealize.ShloMosaic.TcCoe Idealize.SL.Sem

/-- The kernel program as printed: it runs and leaves its arguments unchanged. -/
theorem frame_k : @Cert.frame_Kernel Cert.Kernel.Gen.facts Cert.Pre_finite_inputs.Gen.facts :=
  fun m ρ _ => Cert.Kernel.Gen.frame m ρ

/-- The idealised kernel program: the same. -/
theorem frame_ki : @Cert.frame_KernelIdeal Cert.KernelIdeal.Gen.facts Cert.Pre_finite_inputs.Gen.facts :=
  fun m ρ _ => Cert.KernelIdeal.Gen.frame m ρ

/-- The reference: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories that agree on the arguments, both programs end with the same result array: the kernel program's is
    one term of the arguments, the reference's is its last stage, and on real inputs they are equal. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.KValue.K3
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KValue.kernel_value m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨r0, r2, r3, r4, r5⟩ := Cert.Gcn.Finite.real_inputs m hpre c
    rw [Cert.ReferenceIdeal.Read.val_main_v74_eq, (hagree c).1, (hagree c).2.1, (hagree c).2.2.1, (hagree c).2.2.2.1,
      (hagree c).2.2.2.2.1, (hagree c).2.2.2.2.2]
    exact (Cert.Bridge.result_eq _ _ _ _ _ _ r0 r2 r3 r4).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
